-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x56x56 : Shape := ⟨4, ![128, 64, 56, 56]⟩
abbrev S4x64 : Shape := ⟨2, ![4, 64]⟩
abbrev S4 : Shape := ⟨1, ![4]⟩
abbrev S64x4 : Shape := ⟨2, ![64, 4]⟩
abbrev S64 : Shape := ⟨1, ![64]⟩
abbrev S_ : Shape := ⟨0, ![]⟩

class Facts : Prop where
  bcast_S_S128x64x56x56 : S_.BroadcastsInDim S128x64x56x56 (![] : Fin 0 → Fin S128x64x56x56.rank)
  reducesTo_S128x64x56x56_S_d0_1_2_3 : S128x64x56x56.ReducesTo [0, 1, 2, 3] S_
  h_S_ : 0 < S_.numel
  bcast_S_S4x64 : S_.BroadcastsInDim S4x64 (![] : Fin 0 → Fin S4x64.rank)
  reducesTo_S4x64_S_d0_1 : S4x64.ReducesTo [0, 1] S_
  bcast_S_S4 : S_.BroadcastsInDim S4 (![] : Fin 0 → Fin S4.rank)
  reducesTo_S4_S_d0 : S4.ReducesTo [0] S_
  bcast_S_S64x4 : S_.BroadcastsInDim S64x4 (![] : Fin 0 → Fin S64x4.rank)
  reducesTo_S64x4_S_d0_1 : S64x4.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x4 1) : IVec S_ 1 :=
  let main_c_5 : IVec S_ 1 := constantI S_ 1 1#1
  let main_v17 : IVec S_ 1 := (fun x v => Host.reduce IntOp.andi x v reducesTo_S64x4_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S128x64x56x56 .f32) (main_arg1 : FVec F S4x64 .f32) (main_arg2 : FVec F S4 .f32) (main_arg3 : FVec F S64x4 .f32) (main_arg4 : FVec F S64 .f32) : IVec S_ 1 :=
  let main_v0 : FVec F S128x64x56x56 .f32 := Host.absf main_arg0
  let main_cst : FVec F S_ .f32 := constant S_ .f32 0x7F800000#32
  let main_v1 : FVec F S128x64x56x56 .f32 := broadcastInDim S128x64x56x56 ![] bcast_S_S128x64x56x56 main_cst
  let main_v2 : IVec S128x64x56x56 1 := cmpf .olt main_v0 main_v1
  let main_c : IVec S_ 1 := constantI S_ 1 1#1
  let main_v3 : IVec S_ 1 := (fun x v => Host.reduce IntOp.andi x v reducesTo_S128x64x56x56_S_d0_1_2_3 h_S_) main_v2 main_c
  let main_v4 : FVec F S4x64 .f32 := Host.absf main_arg1
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S64x4 .f32 := Host.absf main_arg3
  let main_cst_4 : FVec F S_ .f32 := constant S_ .f32 0x7F800000#32
  let main_v15 : FVec F S64x4 .f32 := broadcastInDim S64x4 ![] bcast_S_S64x4 main_cst_4
  let main_v16 : IVec S64x4 1 := cmpf .olt main_v14 main_v15
  fn_part1 (F := F) main_arg4 main_v13 main_v16
-- ==== Kernel.lean ====
abbrev S128x64x56x56 : Shape := ⟨4, ![128, 64, 56, 56]⟩
abbrev S4x64 : Shape := ⟨2, ![4, 64]⟩
abbrev S4 : Shape := ⟨1, ![4]⟩
abbrev S64x4 : Shape := ⟨2, ![64, 4]⟩
abbrev S64 : Shape := ⟨1, ![64]⟩
abbrev S64x56x56x128 : Shape := ⟨4, ![64, 56, 56, 128]⟩
abbrev S1x4 : Shape := ⟨2, ![1, 4]⟩
abbrev S1x64 : Shape := ⟨2, ![1, 64]⟩
abbrev S64x128 : Shape := ⟨2, ![64, 128]⟩
abbrev S8x56x56x128 : Shape := ⟨4, ![8, 56, 56, 128]⟩
abbrev S8x128 : Shape := ⟨2, ![8, 128]⟩
abbrev S8x56x128 : Shape := ⟨3, ![8, 56, 128]⟩
abbrev S64x7x56x128 : Shape := ⟨4, ![64, 7, 56, 128]⟩
abbrev S4x128 : Shape := ⟨2, ![4, 128]⟩
abbrev S4x1 : Shape := ⟨2, ![4, 1]⟩
abbrev S64x1 : Shape := ⟨2, ![64, 1]⟩
abbrev S64x1x1x128 : Shape := ⟨4, ![64, 1, 1, 128]⟩

abbrev nBuf : Space → Nat
  | .hbm => 12
  | .vmem => 13
  | .smem => 0
  | _ => 0

abbrev bufTy : (tb : Table) → Fin (tcTables nBuf tb) → BufTy
  | .hbm, ⟨0, _⟩ => ⟨S128x64x56x56, .f32⟩
  | .hbm, ⟨1, _⟩ => ⟨S4x64, .f32⟩
  | .hbm, ⟨2, _⟩ => ⟨S4, .f32⟩
  | .hbm, ⟨3, _⟩ => ⟨S64x4, .f32⟩
  | .hbm, ⟨4, _⟩ => ⟨S64, .f32⟩
  | .hbm, ⟨5, _⟩ => ⟨S64x56x56x128, .f32⟩
  | .hbm, ⟨6, _⟩ => ⟨S1x4, .f32⟩
  | .hbm, ⟨7, _⟩ => ⟨S4x64, .f32⟩
  | .hbm, ⟨8, _⟩ => ⟨S1x64, .f32⟩
  | .hbm, ⟨9, _⟩ => ⟨S64x128, .f32⟩
  | .hbm, ⟨10, _⟩ => ⟨S64x56x56x128, .f32⟩
  | .hbm, ⟨11, _⟩ => ⟨S128x64x56x56, .f32⟩
  | .local _ .vmem, ⟨0, _⟩ => ⟨S8x56x56x128, .f32⟩
  | .local _ .vmem, ⟨1, _⟩ => ⟨S8x56x56x128, .f32⟩
  | .local _ .vmem, ⟨2, _⟩ => ⟨S8x128, .f32⟩
  | .local _ .vmem, ⟨3, _⟩ => ⟨S8x128, .f32⟩
  | .local _ .vmem, ⟨4, _⟩ => ⟨S64x128, .f32⟩
  | .local _ .vmem, ⟨5, _⟩ => ⟨S4x64, .f32⟩
  | .local _ .vmem, ⟨6, _⟩ => ⟨S1x4, .f32⟩
  | .local _ .vmem, ⟨7, _⟩ => ⟨S4x64, .f32⟩
  | .local _ .vmem, ⟨8, _⟩ => ⟨S1x64, .f32⟩
  | .local _ .vmem, ⟨9, _⟩ => ⟨S64x7x56x128, .f32⟩
  | .local _ .vmem, ⟨10, _⟩ => ⟨S64x7x56x128, .f32⟩
  | .local _ .vmem, ⟨11, _⟩ => ⟨S64x7x56x128, .f32⟩
  | .local _ .vmem, ⟨12, _⟩ => ⟨S64x7x56x128, .f32⟩
  | _, _ => ⟨S128x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x56x56x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S64x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S4x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S64x7x56x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S64x7x56x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  transposes_S128x64x56x56_S64x56x56x128_1_2_3_0 : S128x64x56x56.Transposes [1, 2, 3, 0] S64x56x56x128
  shapeCasts_S4_S1x4 : S4.ShapeCasts S1x4
  transposes_S64x4_S4x64_1_0 : S64x4.Transposes [1, 0] S4x64
  shapeCasts_S64_S1x64 : S64.ShapeCasts S1x64
  inb_S8x56x56x128_S8x56x56x128_0_0_0_0 : ∀ a, (![0, 0, 0, 0] : Fin 4 → Nat) a + S8x56x56x128.size a ≤ S8x56x56x128.size a
  h_S8x56x56x128 : 0 < S8x56x56x128.numel
  shapeCasts_S8x56x56x128_S8x56x56x128 : S8x56x56x128.ShapeCasts S8x56x56x128
  reduces_S8x56x56x128_S8x56x128 : S8x56x56x128.Reduces [2] S8x56x128
  reduces_S8x56x128_S8x128 : S8x56x128.Reduces [1] S8x128
  inb_S8x128_S8x128_0_0 : ∀ a, (![0, 0] : Fin 2 → Nat) a + S8x128.size a ≤ S8x128.size a
  h_S8x128 : 0 < S8x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4x64_S4x64_0_0 : ∀ a, (![0, 0] : Fin 2 → Nat) a + S4x64.size a ≤ S4x64.size a
  h_S4x64 : 0 < S4x64.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  transposes_S1x4_p1_0_S4x1 : S1x4.Transposes [1, 0] S4x1
  broadcasts_S4x1_S4x128 : S4x1.Broadcasts S4x128
  shapeCasts_S4x64_S4x64 : S4x64.ShapeCasts S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S1x64_p1_0_S64x1 : S1x64.Transposes [1, 0] S64x1
  broadcasts_S64x1_S64x128 : S64x1.Broadcasts S64x128
  inb_S64x7x56x128_S64x7x56x128_0_0_0_0 : ∀ a, (![0, 0, 0, 0] : Fin 4 → Nat) a + S64x7x56x128.size a ≤ S64x7x56x128.size a
  h_S64x7x56x128 : 0 < S64x7x56x128.numel
  shapeCasts_S64x7x56x128_S64x7x56x128 : S64x7x56x128.ShapeCasts S64x7x56x128
  shapeCasts_S64x128_S64x1x1x128 : S64x128.ShapeCasts S64x1x1x128
  broadcasts_S64x1x1x128_S64x7x56x128 : S64x1x1x128.Broadcasts S64x7x56x128
  transposes_S64x56x56x128_S128x64x56x56_3_0_1_2 : S64x56x56x128.Transposes [3, 0, 1, 2] S128x64x56x56
  dot_S4x64_S64x128_S4x128_1_0_0_1_n_n_wf : DotDims.WF S4x64 S64x128 S4x128 [1] [0] [0] [1] [] []
  dot_S4x64_S4x128_S64x128_0_0_1_1_n_n_wf : DotDims.WF S4x64 S4x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x56x56x128.size a ≤ S64x56x56x128.size a
  hwx0_0 : ∀ i : grid0.Coords, EltTy.bits .f32 = 32 ∨ (Rect.block (s := S64x56x56x128) S8x56x56x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x128.size a
  hwx0_1 : ∀ i : grid0.Coords, EltTy.bits .f32 = 32 ∨ (Rect.block (s := S64x128) S8x128.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S64x128.size a
  hwx1_0 : ∀ i : grid1.Coords, EltTy.bits .f32 = 32 ∨ (Rect.block (s := S64x128) S64x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x64.size a ≤ S4x64.size a
  hwx1_1 : ∀ i : grid1.Coords, EltTy.bits .f32 = 32 ∨ (Rect.block (s := S4x64) S4x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4.size a ≤ S1x4.size a
  hwx1_2 : ∀ i : grid1.Coords, EltTy.bits .f32 = 32 ∨ (Rect.block (s := S1x4) S1x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x7x56x128.size a ≤ S64x56x56x128.size a
  hwx1_5 : ∀ i : grid1.Coords, EltTy.bits .f32 = 32 ∨ (Rect.block (s := S64x56x56x128) S64x7x56x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x7x56x128.size a ≤ S64x56x56x128.size a
  hwx1_6 : ∀ i : grid1.Coords, EltTy.bits .f32 = 32 ∨ (Rect.block (s := S64x56x56x128) S64x7x56x128.size (cc1_transform_6 i) (hinb1_6 i)).WholeWords (EltTy.packing .f32)

variable [Facts₀]

def dot_S4x64_S64x128_S4x128_1_0_0_1_n_n : DotDims S4x64 S64x128 S4x128 where
  lhsContracting := [1]
  rhsContracting := [0]
  lhsNonContracting := [0]
  rhsNonContracting := [1]
  lhsBatch := []
  rhsBatch := []
  wf := dot_S4x64_S64x128_S4x128_1_0_0_1_n_n_wf
def dot_S4x64_S4x128_S64x128_0_0_1_1_n_n : DotDims S4x64 S4x128 S64x128 where
  lhsContracting := [0]
  rhsContracting := [0]
  lhsNonContracting := [1]
  rhsNonContracting := [1]
  lhsBatch := []
  rhsBatch := []
  wf := dot_S4x64_S4x128_S64x128_0_0_1_1_n_n_wf

abbrev win0_0 : Pipeline.Window sig grid0 :=
  Pipeline.Window.ofSpec (Memref.whole main_v0) S8x56x56x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v4) S64x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S64x7x56x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S64x7x56x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S128x64x56x56 : Shape := ⟨4, ![128, 64, 56, 56]⟩
abbrev S4x64 : Shape := ⟨2, ![4, 64]⟩
abbrev S4 : Shape := ⟨1, ![4]⟩
abbrev S64x4 : Shape := ⟨2, ![64, 4]⟩
abbrev S64 : Shape := ⟨1, ![64]⟩
abbrev S128x64x3136 : Shape := ⟨3, ![128, 64, 3136]⟩
abbrev S1x4 : Shape := ⟨2, ![1, 4]⟩
abbrev S64x1 : Shape := ⟨2, ![64, 1]⟩
abbrev S1x64x3136 : Shape := ⟨3, ![1, 64, 3136]⟩
abbrev S1x64 : Shape := ⟨2, ![1, 64]⟩
abbrev S1x64x1 : Shape := ⟨3, ![1, 64, 1]⟩

abbrev nBuf : Space → Nat
  | .hbm => 11
  | .vmem => 8
  | .smem => 0
  | _ => 0

abbrev bufTy : (tb : Table) → Fin (tcTables nBuf tb) → BufTy
  | .hbm, ⟨0, _⟩ => ⟨S128x64x56x56, .f32⟩
  | .hbm, ⟨1, _⟩ => ⟨S4x64, .f32⟩
  | .hbm, ⟨2, _⟩ => ⟨S4, .f32⟩
  | .hbm, ⟨3, _⟩ => ⟨S64x4, .f32⟩
  | .hbm, ⟨4, _⟩ => ⟨S64, .f32⟩
  | .hbm, ⟨5, _⟩ => ⟨S128x64x3136, .f32⟩
  | .hbm, ⟨6, _⟩ => ⟨S64x4, .f32⟩
  | .hbm, ⟨7, _⟩ => ⟨S1x4, .f32⟩
  | .hbm, ⟨8, _⟩ => ⟨S64x1, .f32⟩
  | .hbm, ⟨9, _⟩ => ⟨S128x64x3136, .f32⟩
  | .hbm, ⟨10, _⟩ => ⟨S128x64x56x56, .f32⟩
  | .local _ .vmem, ⟨0, _⟩ => ⟨S1x64x3136, .f32⟩
  | .local _ .vmem, ⟨1, _⟩ => ⟨S1x64x3136, .f32⟩
  | .local _ .vmem, ⟨2, _⟩ => ⟨S64x4, .f32⟩
  | .local _ .vmem, ⟨3, _⟩ => ⟨S1x4, .f32⟩
  | .local _ .vmem, ⟨4, _⟩ => ⟨S64x4, .f32⟩
  | .local _ .vmem, ⟨5, _⟩ => ⟨S64x1, .f32⟩
  | .local _ .vmem, ⟨6, _⟩ => ⟨S1x64x3136, .f32⟩
  | .local _ .vmem, ⟨7, _⟩ => ⟨S1x64x3136, .f32⟩
  | _, _ => ⟨S128x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x3136 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128x64x56x56_S128x64x3136 : S128x64x56x56.ShapeCasts S128x64x3136
  transposes_S4x64_S64x4_1_0 : S4x64.Transposes [1, 0] S64x4
  shapeCasts_S4_S1x4 : S4.ShapeCasts S1x4
  shapeCasts_S64_S64x1 : S64.ShapeCasts S64x1
  inb_S1x64x3136_S1x64x3136_0_0_0 : ∀ a, (![0, 0, 0] : Fin 3 → Nat) a + S1x64x3136.size a ≤ S1x64x3136.size a
  h_S1x64x3136 : 0 < S1x64x3136.numel
  shapeCasts_S1x64x3136_S1x64x3136 : S1x64x3136.ShapeCasts S1x64x3136
  reduces_S1x64x3136_S1x64 : S1x64x3136.Reduces [2] S1x64
  shapeCasts_S1x64_S1x64x1 : S1x64.ShapeCasts S1x64x1
  shapeCasts_S1x64x1_S64x1 : S1x64x1.ShapeCasts S64x1
  inb_S64x4_S64x4_0_0 : ∀ a, (![0, 0] : Fin 2 → Nat) a + S64x4.size a ≤ S64x4.size a
  h_S64x4 : 0 < S64x4.numel
  shapeCasts_S64x4_S64x4 : S64x4.ShapeCasts S64x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4 : S64x1.Broadcasts S64x4
  reduces_S64x4_S4 : S64x4.Reduces [0] S4
  broadcasts_S1x4_S64x4 : S1x4.Broadcasts S64x4
  reduces_S64x4_S64 : S64x4.Reduces [1] S64
  shapeCasts_S64x1_S1x64x1 : S64x1.ShapeCasts S1x64x1
  broadcasts_S1x64x1_S1x64x3136 : S1x64x1.Broadcasts S1x64x3136
  shapeCasts_S128x64x3136_S128x64x56x56 : S128x64x3136.ShapeCasts S128x64x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x3136.size a ≤ S128x64x3136.size a
  hwx0_0 : ∀ i : grid0.Coords, EltTy.bits .f32 = 32 ∨ (Rect.block (s := S128x64x3136) S1x64x3136.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4.size a ≤ S64x4.size a
  hwx0_1 : ∀ i : grid0.Coords, EltTy.bits .f32 = 32 ∨ (Rect.block (s := S64x4) S64x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4.size a ≤ S64x4.size a
  hwx0_3 : ∀ i : grid0.Coords, EltTy.bits .f32 = 32 ∨ (Rect.block (s := S64x4) S64x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x3136.size a ≤ S128x64x3136.size a
  hwx0_5 : ∀ i : grid0.Coords, EltTy.bits .f32 = 32 ∨ (Rect.block (s := S128x64x3136) S1x64x3136.size (cc0_transform_5 i) (hinb0_5 i)).WholeWords (EltTy.packing .f32)

variable [Facts₀]

abbrev win0_0 : Pipeline.Window sig grid0 :=
  Pipeline.Window.ofSpec (Memref.whole main_v0) S1x64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x64x3136.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  The squeeze-and-excite gate over the extended reals, as one function of the five argument arrays.

  For sample n and channel c the pooled value is the sum of x(n, c, ·, ·) over the 56 × 56 spatial positions times the
  literal f32 reciprocal; the hidden unit r is max(∑_k w1(r, k) · pooled(n, k) + b1(r), 0); the gate of (n, c) is
  logistic(∑_r w2(c, r) · hidden(n, r) + b2(c)); the result at (n, c, h, w) is x(n, c, h, w) times the gate of (n, c).
  The pooled sum is written in two arrangements — a double sum over rows and columns, and a single sum over the 3136
  flattened positions j read at (j / 56, j % 56) — which are one number: addition of extended reals is commutative
  and associative, and j ↦ (j / 56, j % 56) is a bijection.
-/
import Idealize.ShloMosaic.PureOps.Ideal
import Idealize.ShloMosaic.Lib.ValueIdx

noncomputable section

open scoped BigOperators

namespace Cert.SE

open Idealize.ShloMosaic Idealize.ShloMosaic.ValueIdx

/-- The literal reciprocal of the 3136 spatial positions both programs multiply by (the same f32 word on both sides). -/
abbrev invHW : EReal := FloatOps.ofBits (F := Ideal) .f32 0x39A72F05#32
/-- The zero both programs clamp the hidden units at. -/
abbrev zeroW : EReal := FloatOps.ofBits (F := Ideal) .f32 0x00000000#32

/-- The pooled value of (n, c): rows then columns. -/
def poolHW (x : (⟨4, ![128, 64, 56, 56]⟩ : Shape).Idx → EReal) (n : Fin 128) (c : Fin 64) : EReal :=
  (∑ h : Fin 56, ∑ w : Fin 56, x (ix4 n c h w)) * invHW

/-- The pooled value of (n, c): the 3136 flattened positions. -/
def poolFlat (x : (⟨4, ![128, 64, 56, 56]⟩ : Shape).Idx → EReal) (n : Fin 128) (c : Fin 64) : EReal :=
  (∑ j : Fin 3136, x (ix4 n c (⟨j.val / 56, by have := j.isLt; omega⟩ : Fin 56) (⟨j.val % 56, Nat.mod_lt _ (by decide)⟩ : Fin 56))) * invHW

/-- Hidden unit r of sample n from pooled values P. -/
def hidden (P : Fin 128 → Fin 64 → EReal) (w1 : (⟨2, ![4, 64]⟩ : Shape).Idx → EReal) (b1 : (⟨1, ![4]⟩ : Shape).Idx → EReal)
    (n : Fin 128) (r : Fin 4) : EReal :=
  max (∑ k : Fin 64, w1 (ix2 r k) * P n k + b1 (ix1 r)) zeroW

/-- The gate of (n, c). -/
def gate (P : Fin 128 → Fin 64 → EReal) (w1 : (⟨2, ![4, 64]⟩ : Shape).Idx → EReal) (b1 : (⟨1, ![4]⟩ : Shape).Idx → EReal)
    (w2 : (⟨2, ![64, 4]⟩ : Shape).Idx → EReal) (b2 : (⟨1, ![64]⟩ : Shape).Idx → EReal) (n : Fin 128) (c : Fin 64) : EReal :=
  Ideal.logistic (∑ r : Fin 4, w2 (ix2 c r) * hidden P w1 b1 n r + b2 (ix1 c))

/-- The result array: x scaled by the gate of its sample and channel. -/
def out (P : Fin 128 → Fin 64 → EReal) (x : (⟨4, ![128, 64, 56, 56]⟩ : Shape).Idx → EReal)
    (w1 : (⟨2, ![4, 64]⟩ : Shape).Idx → EReal) (b1 : (⟨1, ![4]⟩ : Shape).Idx → EReal)
    (w2 : (⟨2, ![64, 4]⟩ : Shape).Idx → EReal) (b2 : (⟨1, ![64]⟩ : Shape).Idx → EReal) :
    (⟨4, ![128, 64, 56, 56]⟩ : Shape).Idx → EReal :=
  fun i => x i * gate P w1 b1 w2 b2 (i 0) (i 1)

theorem out_ix4 (P : Fin 128 → Fin 64 → EReal) (x : (⟨4, ![128, 64, 56, 56]⟩ : Shape).Idx → EReal)
    (w1 : (⟨2, ![4, 64]⟩ : Shape).Idx → EReal) (b1 : (⟨1, ![4]⟩ : Shape).Idx → EReal)
    (w2 : (⟨2, ![64, 4]⟩ : Shape).Idx → EReal) (b2 : (⟨1, ![64]⟩ : Shape).Idx → EReal)
    (n : Fin 128) (c : Fin 64) (h w : Fin 56) :
    out P x w1 b1 w2 b2 (ix4 n c h w) = x (ix4 n c h w) * gate P w1 b1 w2 b2 n c := rfl

/-- The flattened sum is the double sum: j ↦ (j / 56, j % 56) is a bijection from the 3136 positions to the grid. -/
theorem sum_flat_eq {M : Type*} [AddCommMonoid M] (f : Fin 56 → Fin 56 → M) :
    (∑ j : Fin 3136, f (⟨j.val / 56, by have := j.isLt; omega⟩ : Fin 56) (⟨j.val % 56, Nat.mod_lt _ (by decide)⟩ : Fin 56))
      = ∑ h : Fin 56, ∑ w : Fin 56, f h w := by
  rw [← Finset.sum_product', Finset.univ_product_univ]
  refine (Equiv.sum_comp (finProdFinEquiv (m := 56) (n := 56)) (fun j : Fin (56 * 56) =>
      f (⟨j.val / 56, by have := j.isLt; omega⟩ : Fin 56) (⟨j.val % 56, Nat.mod_lt _ (by decide)⟩ : Fin 56))).symm.trans ?_
  refine Finset.sum_congr rfl fun p _ => ?_
  obtain ⟨h, w⟩ := p
  have e1 : (h.val * 56 + w.val) / 56 = h.val := by have := w.isLt; omega
  have e2 : (h.val * 56 + w.val) % 56 = w.val := by have := w.isLt; omega
  have hv : (finProdFinEquiv (h, w)).val = w.val + 56 * h.val := rfl
  have c1 : (⟨(finProdFinEquiv (h, w)).val / 56, by have := (finProdFinEquiv (h, w)).isLt; omega⟩ : Fin 56) = h :=
    Fin.ext (by show (finProdFinEquiv (h, w)).val / 56 = h.val; rw [hv]; have := w.isLt; omega)
  have c2 : (⟨(finProdFinEquiv (h, w)).val % 56, Nat.mod_lt _ (by decide)⟩ : Fin 56) = w :=
    Fin.ext (by show (finProdFinEquiv (h, w)).val % 56 = w.val; rw [hv]; have := w.isLt; omega)
  show f _ _ = f h w
  rw [c1, c2]

theorem poolFlat_eq_poolHW (x : (⟨4, ![128, 64, 56, 56]⟩ : Shape).Idx → EReal) : poolFlat x = poolHW x := by
  funext n c
  unfold poolFlat poolHW
  rw [sum_flat_eq (fun h w => x (ix4 n c h w))]

end Cert.SE

end
-- ==== Proof.LibAxisSum.lean ====
/-
  Lane sums of f32 arrays along an inner axis, read at an index over the extended reals, for any extents: the sum along
  the third of four axes at (p, q, r) is the plain sum over k of src (p, q, k, r); the sum along the second of three axes
  at (p, r) is the plain sum over k of src (p, k, r).  The side condition on the initial word is spelt as the equation
  between the two literal zero words, the form a printed reduction carries.  Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibAxisSum

open Idealize.ShloMosaic Idealize.ShloMosaic.ValueIdx

variable {a b c d : ℕ}

/-- Result index (p, q, r) of a reduction along the third of four axes, with the dropped coordinate k put back, is (p, q, k, r). -/
theorem lift_4_2 (h : (⟨4, ![a, b, c, d]⟩ : Shape).Reduces [(2 : Fin 4)] ⟨3, ![a, b, d]⟩) (p : Fin a) (q : Fin b) (r : Fin d) (k : Fin c) :
    h.lift (ix3 p q r) k = ix4 p q k r := by
  funext x
  apply Fin.ext
  match x with
  | ⟨0, _⟩ => rfl
  | ⟨1, _⟩ => rfl
  | ⟨2, _⟩ => rfl
  | ⟨3, _⟩ => rfl

/-- The sum along the third of four axes at (p, q, r), from the zero word. -/
theorem sum_4_2_f32 (src : FVec Ideal ⟨4, ![a, b, c, d]⟩ .f32)
    (h : (⟨4, ![a, b, c, d]⟩ : Shape).Reduces [(2 : Fin 4)] ⟨3, ![a, b, d]⟩) (hφ : FKind.Formats .f32)
    (hacc : (0x00000000#32 : BitVec 32) = 0x00000000#32) (p : Fin a) (q : Fin b) (r : Fin d) :
    multiReduction .add [(2 : Fin 4)] ⟨3, ![a, b, d]⟩ src 0x00000000#32 h hφ hacc (ix3 p q r) = ∑ k : Fin c, src (ix4 p q k r) :=
  (Ideal.multiReduction_add_single src 0x00000000#32 h hφ hacc (ix3 p q r)).trans
    (Finset.sum_congr rfl fun k _ => congrArg src (lift_4_2 h p q r k))

/-- Result index (p, r) of a reduction along the second of three axes, with the dropped coordinate k put back, is (p, k, r). -/
theorem lift_3_1 (h : (⟨3, ![a, b, c]⟩ : Shape).Reduces [(1 : Fin 3)] ⟨2, ![a, c]⟩) (p : Fin a) (r : Fin c) (k : Fin b) :
    h.lift (ix2 p r) k = ix3 p k r := by
  funext x
  apply Fin.ext
  match x with
  | ⟨0, _⟩ => rfl
  | ⟨1, _⟩ => rfl
  | ⟨2, _⟩ => rfl

/-- The sum along the second of three axes at (p, r), from the zero word. -/
theorem sum_3_1_f32 (src : FVec Ideal ⟨3, ![a, b, c]⟩ .f32)
    (h : (⟨3, ![a, b, c]⟩ : Shape).Reduces [(1 : Fin 3)] ⟨2, ![a, c]⟩) (hφ : FKind.Formats .f32)
    (hacc : (0x00000000#32 : BitVec 32) = 0x00000000#32) (p : Fin a) (r : Fin c) :
    multiReduction .add [(1 : Fin 3)] ⟨2, ![a, c]⟩ src 0x00000000#32 h hφ hacc (ix2 p r) = ∑ k : Fin b, src (ix3 p k r) :=
  (Ideal.multiReduction_add_single src 0x00000000#32 h hφ hacc (ix2 p r)).trans
    (Finset.sum_congr rfl fun k _ => congrArg src (lift_3_1 h p r k))

end Cert.LibAxisSum

end
-- ==== Proof.KPool.lean ====
/-
  The pooling body read at an index over the extended reals.

  The body sums its [8, 56, 56, 128] block first along the third axis and then along the second, and multiplies by the
  literal reciprocal: at (p, n) it holds (∑ h, ∑ w, block (p, h, w, n)) · invHW.  Each lane sum is the plain
  sum over the dropped coordinate.
-/
import proofs.«176814_g2000409630349674_pallasbulk_1070_15_alg».proof.Proof.Gen.KernelIdeal.Skeleton
import proofs.«176814_g2000409630349674_pallasbulk_1070_15_alg».proof.Proof.Spec
import proofs.«176814_g2000409630349674_pallasbulk_1070_15_alg».proof.Proof.LibAxisSum
import Idealize.ShloMosaic.PureOps.Ideal.Laws
import Idealize.ShloMosaic.Lib.Pipeline.Value
import Idealize.ShloMosaic.Lib.ValueIdx

noncomputable section

open scoped BigOperators

namespace Cert.KernelIdeal.KValue

open Idealize.ShloMosaic Idealize.ShloMosaic.ValueIdx Cert.KernelIdeal Cert.KernelIdeal.Gen

/-- The pooling body at (p, n): the block's double sum over rows and columns times the literal reciprocal. -/
theorem pool_payload_apply (x0 : Vec Ideal S8x56x56x128 .f32) (p : Fin 8) (n : Fin 128) :
    k0_pay1 (F := Ideal) x0 (ix2 p n) = (∑ h : Fin 56, ∑ w : Fin 56, x0 (ix4 p h w n)) * Cert.SE.invHW := by
  unfold k0_pay1
  rw [shapeCast_self]
  refine congrArg (· * Cert.SE.invHW) ?_
  refine (Cert.LibAxisSum.sum_3_1_f32 _ _ _ _ p n).trans ?_
  refine Finset.sum_congr rfl fun h _ => ?_
  exact Cert.LibAxisSum.sum_4_2_f32 x0 _ _ _ p h n

end Cert.KernelIdeal.KValue

end
-- ==== Proof.KPoolArr.lean ====
/-
  The pooling call, from blocks to the array.

  Grid point t of the pooling call reads rows 8t … 8t+7 of the [64, 56, 56, 128] array (whole in the other three axes)
  and writes rows 8t … 8t+7 of the [64, 128] result.  What it writes back is its block of ONE function of the array
  the call finds: row q, sample n holds (∑ h, ∑ w, X (q, h, w, n)) · invHW.  The eight blocks tile the result
  (row q is in block q / 8), so after the call the result array is that function.
-/
import proofs.«176814_g2000409630349674_pallasbulk_1070_15_alg».proof.Proof.Gen.KernelIdeal.Frame
import proofs.«176814_g2000409630349674_pallasbulk_1070_15_alg».proof.Proof.KPool

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

/-- Row q, sample n of the pooled array of X. -/
def pooledAt (X : S64x56x56x128.Idx → EReal) (q : Fin 64) (n : Fin 128) : EReal :=
  (∑ h : Fin 56, ∑ w : Fin 56, X (ix4 q h w n)) * Cert.SE.invHW

/-- The pooled array of X. -/
def pooledArr (X : S64x56x56x128.Idx → EReal) : S64x128.Idx → EReal := fun i => pooledAt X (i 0) (i 1)

theorem pooledArr_ix2 (X : S64x56x56x128.Idx → EReal) (q : Fin 64) (n : Fin 128) : pooledArr X (ix2 q n) = pooledAt X q n := rfl

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The printed index maps of the pooling call, decided over its grid: both windows move with the point along the
    first axis and stay at block 0 on the others. -/
theorem pool_index_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 2) = t.val ∧ win0_1.index t (1 : Fin 2) = 0 :=
  (by decide +kernel : ∀ t : Fin grid0.N, _)

theorem pool_point_lt (t : Fin cfg0.N) : t.val < 8 := lt_of_lt_of_eq t.isLt N_0

/-- The array row under row p of block t. -/
def poolRow (t : Fin cfg0.N) (p : Fin 8) : Fin 64 := ⟨t.val * 8 + p.val, by have := pool_point_lt t; have := p.isLt; omega⟩

/-- Where an element of the input block of point t sits in the array. -/
theorem pool_in_emb (t : Fin cfg0.N) (p : Fin 8) (h w : Fin 56) (n : Fin 128) :
    ((cfg0.win 0).blk t).view.emb (ix4 p h w n) = ix4 (poolRow t p) h w n := by
  obtain ⟨e0, e1, e2, e3, -, -⟩ := pool_index_facts t
  funext a; apply Fin.ext
  match a with
  | ⟨0, _⟩ => show win0_0.index t (0 : Fin 4) * 8 + 1 * p.val = t.val * 8 + p.val; omega
  | ⟨1, _⟩ => show win0_0.index t (1 : Fin 4) * 56 + 1 * h.val = h.val; omega
  | ⟨2, _⟩ => show win0_0.index t (2 : Fin 4) * 56 + 1 * w.val = w.val; omega
  | ⟨3, _⟩ => show win0_0.index t (3 : Fin 4) * 128 + 1 * n.val = n.val; omega

/-- Where an element of the output block of point t sits in the array. -/
theorem pool_out_emb (t : Fin cfg0.N) (p : Fin 8) (n : Fin 128) :
    ((cfg0.win 1).blk t).view.emb (ix2 p n) = ix2 (poolRow t p) n := by
  obtain ⟨-, -, -, -, e4, e5⟩ := pool_index_facts t
  funext a; apply Fin.ext
  match a with
  | ⟨0, _⟩ => show win0_1.index t (0 : Fin 2) * 8 + 1 * p.val = t.val * 8 + p.val; omega
  | ⟨1, _⟩ => show win0_1.index t (1 : Fin 2) * 128 + 1 * n.val = n.val; omega

section
variable (V : (c : Dev nD) → (b : Ref sig .tc) → Buf (Elt Ideal) ((c : Thread nD τ).loc b))

/-- The input block of point t, read where the array holds it. -/
theorem pool_in_block_apply (c : Dev nD) (t : Fin cfg0.N) (p : Fin 8) (h w : Fin 56) (n : Fin 128) :
    iblk0 V c 0 t (ix4 p h w n) = V c main_v0 (ix4 (poolRow t p) h w n) := by
  show V c main_v0 (((cfg0.win 0).blk t).view.emb (ix4 p h w n)) = _
  rw [pool_in_emb]

/-- WHAT POINT t WRITES BACK is block t of the pooled array of what the call finds. -/
theorem pool_flushed (c : Dev nD) (t : Fin cfg0.N) :
    (dat0 V c).flushed 1 t = ((cfg0.win 1).blk t).view.read (Elt Ideal) (pooledArr (V c main_v0)) := by
  show (cfg0.win 1).cut (grid0.coords t) ((dat0 V c).after 1 t) = _
  rw [after0_1]
  unfold out0_1
  rw [View.canon_unit_zero zeros2]
  simp only [View.ld_unit_zero (S := S8x56x56x128) zeros4]
  funext j
  obtain ⟨p, n, rfl⟩ : ∃ (p : Fin 8) (n : Fin 128), j = ix2 p n := ⟨j 0, j 1, eq_ix2 j⟩
  show k0_pay1 (F := Ideal) (iblk0 V c 0 t) (ix2 p n) = pooledArr (V c main_v0) (((cfg0.win 1).blk t).view.emb (ix2 p n))
  rw [pool_out_emb, pooledArr_ix2]
  refine (pool_payload_apply (iblk0 V c 0 t) p n).trans ?_
  unfold pooledAt
  refine congrArg (· * Cert.SE.invHW) ?_
  refine Finset.sum_congr rfl fun h _ => Finset.sum_congr rfl fun w _ => ?_
  exact pool_in_block_apply V c t p h w n

/-- An index of the result is in point t's block iff each coordinate is in the block's range on its axis. -/
theorem pool_mem_blk (t : Fin cfg0.N) (i : S64x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v4).slice (win0_1.rect t)).set ↔ _
  rw [View.set_slice_whole, Rect.mem_set_unit]
  exact Iff.rfl

/-- Every index of the result is in some point's block: row q in block q / 8. -/
theorem pool_cover (i : S64x128.Idx) :
    ∃ t : Fin cfg0.N, (cfg0.win 1).flush t = true ∧ i ∈ ((cfg0.win 1).blk t).view.set := by
  have hi0 : (i 0).val < 64 := (i 0).isLt
  have hi1 : (i 1).val < 128 := (i 1).isLt
  have hN : cfg0.N = 8 := N_0
  let t : Fin cfg0.N := ⟨(i 0).val / 8, by rw [hN]; omega⟩
  have ht : t.val = (i 0).val / 8 := rfl
  obtain ⟨-, -, -, -, e4, e5⟩ := pool_index_facts t
  refine ⟨t, flush0_1 t, ?_⟩
  rw [pool_mem_blk]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- THE RESULT ARRAY of the pooling call: the pooled array of the array it finds. -/
theorem pool_final (c : Dev nD) : (dat0 V c).arrAt 1 cfg0.N = pooledArr (V c main_v0) :=
  (dat0 V c).arrAt_eq_of_cover 1 (pooledArr (V c main_v0)) (fun t _ => pool_flushed V c t) pool_cover

end

end Cert.KernelIdeal.KValue

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColDot.lean ====
/-
  A matrix product that contracts the FIRST axis of both operands, read at an index.

  The product of a `[K, R]` array with a `[K, C]` array into `[R, C]` that contracts the leading axis of both —
  the transposed left operand times the right operand, `lhsᵀ · rhs` — has the dimension numbers of the record
  `colDot` below, whose side condition is a parameter: any record with the same lists is one of them by unfolding.
  On the extended reals the product into a zero accumulator, read at `(p, q)`, is the sum over `k` of
  `lhs (k, p) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibColDot

open Idealize.ShloMosaic Idealize.ShloMosaic.ValueIdx

/-- The dimension numbers of a `[K, R] × [K, C] → [R, C]` product contracting the leading axis of both operands. -/
abbrev colDot (K R C : Nat)
    (wf : DotDims.WF ⟨2, ![K, R]⟩ ⟨2, ![K, C]⟩ ⟨2, ![R, C]⟩ [0] [0] [1] [1] [] []) :
    DotDims ⟨2, ![K, R]⟩ ⟨2, ![K, C]⟩ ⟨2, ![R, C]⟩ where
  lhsContracting := [0]
  rhsContracting := [0]
  lhsNonContracting := [1]
  rhsNonContracting := [1]
  lhsBatch := []
  rhsBatch := []
  wf := wf

section
variable {K R C : Nat} (wf : DotDims.WF ⟨2, ![K, R]⟩ ⟨2, ![K, C]⟩ ⟨2, ![R, C]⟩ [0] [0] [1] [1] [] [])

/-- The left operand's index for output `(p, q)` and contraction coordinate `k` is `(k, p)`. -/
theorem colDot_lhsIdx (p : Fin R) (q : Fin C) (k : Fin K) :
    (colDot K R C wf).lhsIdx (ix2 p q) ((contrEquiv1 (colDot K R C wf) K rfl rfl).symm k) = ix2 k p := by
  have hk := contrEquiv1_symm_val (colDot K R C wf) K rfl rfl k
  funext a
  refine Fin.ext ?_
  match a with
  | ⟨0, _⟩ =>
    exact ((colDot K R C wf).lhsIdx_val_of_single (cl := (0 : Fin 2)) rfl (ix2 p q) _).trans hk
  | ⟨1, _⟩ =>
    show ((colDot K R C wf).lhsIdx (ix2 p q) ((contrEquiv1 (colDot K R C wf) K rfl rfl).symm k) 1).val = p.val
    unfold DotDims.lhsIdx
    rw [dif_neg (show ¬(1 : Fin 2) ∈ (colDot K R C wf).lhsBatch from List.not_mem_nil),
      dif_pos (show (1 : Fin 2) ∈ (colDot K R C wf).lhsNonContracting from List.mem_singleton.mpr rfl)]
    rfl

/-- The right operand's index for output `(p, q)` and contraction coordinate `k` is `(k, q)`. -/
theorem colDot_rhsIdx (p : Fin R) (q : Fin C) (k : Fin K) :
    (colDot K R C wf).rhsIdx (ix2 p q) ((contrEquiv1 (colDot K R C wf) K rfl rfl).symm k) = ix2 k q := by
  have hk := contrEquiv1_symm_val (colDot K R C wf) K rfl rfl k
  funext a
  refine Fin.ext ?_
  match a with
  | ⟨0, _⟩ =>
    exact ((colDot K R C wf).rhsIdx_val_of_single (cr := (0 : Fin 2)) rfl (ix2 p q) _).trans hk
  | ⟨1, _⟩ =>
    show ((colDot K R C wf).rhsIdx (ix2 p q) ((contrEquiv1 (colDot K R C wf) K rfl rfl).symm k) 1).val = q.val
    unfold DotDims.rhsIdx
    rw [dif_neg (show ¬(1 : Fin 2) ∈ (colDot K R C wf).rhsBatch from List.not_mem_nil),
      dif_pos (show (1 : Fin 2) ∈ (colDot K R C wf).rhsNonContracting from List.mem_singleton.mpr rfl)]
    rfl

/-- THE PRODUCT `lhsᵀ · rhs` INTO A ZERO ACCUMULATOR AT `(p, q)`: the sum over `k` of `lhs (k, p) * rhs (k, q)`. -/
theorem matmul_zero_apply {φ₁ φ₂ : FTy} (prec : Option ContractPrecision)
    (lhs : FVec Ideal ⟨2, ![K, R]⟩ φ₁) (rhs : FVec Ideal ⟨2, ![K, C]⟩ φ₂) (p : Fin R) (q : Fin C) :
    FloatOps.matmul (colDot K R C wf) prec lhs rhs (constant ⟨2, ![R, C]⟩ .f32 0x00000000#32) (ix2 p q)
      = ∑ k : Fin K, lhs (ix2 k p) * rhs (ix2 k q) := by
  rw [Ideal.matmul_constant_zero_apply, ← Equiv.sum_comp (contrEquiv1 (colDot K R C wf) K rfl rfl).symm]
  refine Finset.sum_congr rfl fun k _ => ?_
  rw [colDot_lhsIdx wf p q k, colDot_rhsIdx wf p q k]

end

end Cert.LibColDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibSpread.lean ====
/-
  A two-axis array spread over two new middle axes, read at an index, for any extents and element type: an [a, d] array
  cast to [a, 1, 1, d] and repeated along the two unit axes to [a, b, c, d] reads, at (p, q, r, s), its entry (p, s).
  Names no program.
-/
import Idealize.ShloMosaic.Lib.Pipeline.Value
import Idealize.ShloMosaic.Lib.ValueIdx

namespace Cert.LibSpread

open Idealize.ShloMosaic Idealize.ShloMosaic.ValueIdx

variable {α : Type} {a b c d : ℕ}

/-- An [a, d] array given two unit axes in the middle and repeated over them to [a, b, c, d] reads, at (p, q, r, s), its entry (p, s). -/
theorem spread_middle_apply (v : (⟨2, ![a, d]⟩ : Shape).Idx → α)
    (hc : (⟨2, ![a, d]⟩ : Shape).ShapeCasts ⟨4, ![a, 1, 1, d]⟩) (hb : (⟨4, ![a, 1, 1, d]⟩ : Shape).Broadcasts ⟨4, ![a, b, c, d]⟩)
    (p : Fin a) (q : Fin b) (r : Fin c) (s : Fin d) :
    broadcastTo ⟨4, ![a, b, c, d]⟩ (shapeCast ⟨4, ![a, 1, 1, d]⟩ v hc) hb (ix4 p q r s) = v (ix2 p s) := by
  refine (broadcastTo_apply _ hb (ix4 p q r s) (ix4 p (0 : Fin 1) (0 : Fin 1) s) fun ax => ?_).trans
    (shapeCast_apply v hc _ (ix2 p s) ?_)
  · match ax with
    | ⟨0, _⟩ =>
      show p.val = if a = 1 then 0 else p.val
      split
      · have := p.isLt; omega
      · rfl
    | ⟨1, _⟩ => rfl
    | ⟨2, _⟩ => rfl
    | ⟨3, _⟩ =>
      show s.val = if d = 1 then 0 else s.val
      split
      · have := s.isLt; omega
      · rfl
  · rw [Shape.rowMajor_val_two, Shape.rowMajor_val_four]
    show p.val * d + s.val = ((p.val * 1 + 0) * 1 + 0) * d + s.val
    simp

end Cert.LibSpread
-- ==== Proof.KGate.lean ====
/-
  The rescaling body read at an index over the extended reals.

  With p the pooled block [64, 128], w1 [4, 64], b1 a row [1, 4], w2t [4, 64] (the second weight matrix transposed),
  b2 a row [1, 64] and xb the [64, 7, 56, 128] block, the body holds at (c, h, w, n)
    xb (c, h, w, n) · logistic (∑ r, w2t (r, c) · max (∑ k, w1 (r, k) · p (k, n) + b1 (0, r), 0) + b2 (0, c)):
  the first product contracts w1's columns with p's rows, the second contracts the leading axis of w2t and of the
  hidden units; each bias row is transposed to a column and repeated along the samples; the gate [64, 128] is
  given two unit axes and repeated over the block's rows and columns.
-/
import proofs.«176814_g2000409630349674_pallasbulk_1070_15_alg».proof.Proof.Gen.KernelIdeal.Skeleton
import proofs.«176814_g2000409630349674_pallasbulk_1070_15_alg».proof.Proof.Spec
import proofs.«176814_g2000409630349674_pallasbulk_1070_15_alg».proof.Proof.LibPlainDot
import proofs.«176814_g2000409630349674_pallasbulk_1070_15_alg».proof.Proof.LibColDot
import proofs.«176814_g2000409630349674_pallasbulk_1070_15_alg».proof.Proof.LibColumn
import proofs.«176814_g2000409630349674_pallasbulk_1070_15_alg».proof.Proof.LibSpread
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.KValue

open Idealize.ShloMosaic Idealize.ShloMosaic.ValueIdx Cert.KernelIdeal Cert.KernelIdeal.Gen

/-- The rescaling body at (c, h, w, n). -/
theorem rescale_payload_apply (x0 : Vec Ideal S64x128 .f32) (x1 : Vec Ideal S4x64 .f32) (x2 : Vec Ideal S1x4 .f32)
    (x3 : Vec Ideal S4x64 .f32) (x4 : Vec Ideal S1x64 .f32) (x5 : Vec Ideal S64x7x56x128 .f32)
    (c : Fin 64) (h : Fin 7) (w : Fin 56) (n : Fin 128) :
    k1_pay1 (F := Ideal) x0 x1 x2 x3 x4 x5 (ix4 c h w n)
      = x5 (ix4 c h w n) * Ideal.logistic (∑ r : Fin 4, x3 (ix2 r c)
          * max (∑ k : Fin 64, x1 (ix2 r k) * x0 (ix2 k n) + x2 (ix2 (0 : Fin 1) r)) Cert.SE.zeroW + x4 (ix2 (0 : Fin 1) c)) := by
  unfold k1_pay1
  simp only [shapeCast_self]
  refine congrArg (x5 (ix4 c h w n) * ·) ?_
  refine (Cert.LibSpread.spread_middle_apply _ _ _ c h w n).trans ?_
  refine congrArg Ideal.logistic ?_
  refine congrArg₂ (· + ·) ?_ ?_
  · refine (Cert.LibColDot.matmul_zero_apply (K := 4) (R := 64) (C := 128) _ none _ _ c n).trans ?_
    refine Finset.sum_congr rfl fun r _ => ?_
    refine congrArg (x3 (ix2 r c) * ·) ?_
    refine congrArg (max · Cert.SE.zeroW) ?_
    refine congrArg₂ (· + ·) ?_ ?_
    · exact Cert.LibPlainDot.matmul_zero_apply (R := 4) (K := 64) (C := 128) _ none x1 x0 r n
    · exact (Cert.LibColumn.broadcastTo_a1_ab_apply _ _ r n).trans (transpose_ix2_apply x2 _ r (0 : Fin 1))
  · exact (Cert.LibColumn.broadcastTo_a1_ab_apply _ _ c n).trans (transpose_ix2_apply x4 _ c (0 : Fin 1))

end Cert.KernelIdeal.KValue

end
-- ==== Proof.KGateArr.lean ====
/-
  The rescaling call, from blocks to the array.

  Grid point t of the rescaling call reads the whole pooled array [64, 128], the whole of both weight matrices and
  both bias rows, and rows 7t … 7t+6 (second axis) of the [64, 56, 56, 128] array; it writes the same rows of the
  result.  What it writes back is its block of ONE function of the arrays the call finds: at (c, h, w, n) the array's
  entry times the gate of (c, n).  The eight blocks tile the result (row h is in block h / 7).
-/
import proofs.«176814_g2000409630349674_pallasbulk_1070_15_alg».proof.Proof.Gen.KernelIdeal.Frame
import proofs.«176814_g2000409630349674_pallasbulk_1070_15_alg».proof.Proof.KGate

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.Pipeline (Dat)
open Cert.KernelIdeal Cert.KernelIdeal.Gen

/-- The gate of channel c, sample n from the pooled array, the weights and the bias rows as the call finds them. -/
def gatedAt (P : S64x128.Idx → EReal) (W1 : S4x64.Idx → EReal) (B1 : S1x4.Idx → EReal) (W2t : S4x64.Idx → EReal)
    (B2 : S1x64.Idx → EReal) (c : Fin 64) (n : Fin 128) : EReal :=
  Ideal.logistic (∑ r : Fin 4, W2t (ix2 r c)
    * max (∑ k : Fin 64, W1 (ix2 r k) * P (ix2 k n) + B1 (ix2 (0 : Fin 1) r)) Cert.SE.zeroW + B2 (ix2 (0 : Fin 1) c))

/-- The rescaled array. -/
def rescaledArr (P : S64x128.Idx → EReal) (W1 : S4x64.Idx → EReal) (B1 : S1x4.Idx → EReal) (W2t : S4x64.Idx → EReal)
    (B2 : S1x64.Idx → EReal) (X : S64x56x56x128.Idx → EReal) : S64x56x56x128.Idx → EReal :=
  fun i => X i * gatedAt P W1 B1 W2t B2 (i 0) (i 3)

theorem rescaledArr_ix4 (P : S64x128.Idx → EReal) (W1 : S4x64.Idx → EReal) (B1 : S1x4.Idx → EReal) (W2t : S4x64.Idx → EReal)
    (B2 : S1x64.Idx → EReal) (X : S64x56x56x128.Idx → EReal) (c : Fin 64) (h w : Fin 56) (n : Fin 128) :
    rescaledArr P W1 B1 W2t B2 X (ix4 c h w n) = X (ix4 c h w n) * gatedAt P W1 B1 W2t B2 c n := rfl

theorem zeros2' : (![0, 0] : Fin 2 → Nat) = fun _ => 0 := funext fun a => by fin_cases a <;> rfl
theorem zeros4' : (![0, 0, 0, 0] : Fin 4 → Nat) = fun _ => 0 := funext fun a => by fin_cases a <;> rfl

/-- The printed index maps of the rescaling call, decided over its grid: the five small windows stay at block 0, the
    two large ones move with the point along the second axis. -/
theorem gate_index_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 4) = 0 ∧ win1_5.index t (1 : Fin 4) = t.val ∧ win1_5.index t (2 : Fin 4) = 0 ∧ win1_5.index t (3 : Fin 4) = 0
    ∧ win1_6.index t (0 : Fin 4) = 0 ∧ win1_6.index t (1 : Fin 4) = t.val ∧ win1_6.index t (2 : Fin 4) = 0 ∧ win1_6.index t (3 : Fin 4) = 0 :=
  (by decide +kernel : ∀ t : Fin grid1.N, _)

theorem gate_point_lt (t : Fin cfg1.N) : t.val < 8 := lt_of_lt_of_eq t.isLt N_1

/-- The array row (second axis) under row h of block t. -/
def gateRow (t : Fin cfg1.N) (h : Fin 7) : Fin 56 := ⟨t.val * 7 + h.val, by have := gate_point_lt t; have := h.isLt; omega⟩

theorem gate_p_emb (t : Fin cfg1.N) (k : Fin 64) (n : Fin 128) : ((cfg1.win 0).blk t).view.emb (ix2 k n) = ix2 k n := by
  obtain ⟨e0, e1, -⟩ := gate_index_facts t
  funext a; apply Fin.ext
  match a with
  | ⟨0, _⟩ => show win1_0.index t (0 : Fin 2) * 64 + 1 * k.val = k.val; omega
  | ⟨1, _⟩ => show win1_0.index t (1 : Fin 2) * 128 + 1 * n.val = n.val; omega

theorem gate_w1_emb (t : Fin cfg1.N) (r : Fin 4) (k : Fin 64) : ((cfg1.win 1).blk t).view.emb (ix2 r k) = ix2 r k := by
  obtain ⟨-, -, e0, e1, -⟩ := gate_index_facts t
  funext a; apply Fin.ext
  match a with
  | ⟨0, _⟩ => show win1_1.index t (0 : Fin 2) * 4 + 1 * r.val = r.val; omega
  | ⟨1, _⟩ => show win1_1.index t (1 : Fin 2) * 64 + 1 * k.val = k.val; omega

theorem gate_b1_emb (t : Fin cfg1.N) (u : Fin 1) (r : Fin 4) : ((cfg1.win 2).blk t).view.emb (ix2 u r) = ix2 u r := by
  obtain ⟨-, -, -, -, e0, e1, -⟩ := gate_index_facts t
  funext a; apply Fin.ext
  match a with
  | ⟨0, _⟩ => show win1_2.index t (0 : Fin 2) * 1 + 1 * u.val = u.val; omega
  | ⟨1, _⟩ => show win1_2.index t (1 : Fin 2) * 4 + 1 * r.val = r.val; omega

theorem gate_w2_emb (t : Fin cfg1.N) (r : Fin 4) (k : Fin 64) : ((cfg1.win 3).blk t).view.emb (ix2 r k) = ix2 r k := by
  obtain ⟨-, -, -, -, -, -, e0, e1, -⟩ := gate_index_facts t
  funext a; apply Fin.ext
  match a with
  | ⟨0, _⟩ => show win1_3.index t (0 : Fin 2) * 4 + 1 * r.val = r.val; omega
  | ⟨1, _⟩ => show win1_3.index t (1 : Fin 2) * 64 + 1 * k.val = k.val; omega

theorem gate_b2_emb (t : Fin cfg1.N) (u : Fin 1) (k : Fin 64) : ((cfg1.win 4).blk t).view.emb (ix2 u k) = ix2 u k := by
  obtain ⟨-, -, -, -, -, -, -, -, e0, e1, -⟩ := gate_index_facts t
  funext a; apply Fin.ext
  match a with
  | ⟨0, _⟩ => show win1_4.index t (0 : Fin 2) * 1 + 1 * u.val = u.val; omega
  | ⟨1, _⟩ => show win1_4.index t (1 : Fin 2) * 64 + 1 * k.val = k.val; omega

theorem gate_x_emb (t : Fin cfg1.N) (c : Fin 64) (h : Fin 7) (w : Fin 56) (n : Fin 128) :
    ((cfg1.win 5).blk t).view.emb (ix4 c h w n) = ix4 c (gateRow t h) w n := by
  obtain ⟨-, -, -, -, -, -, -, -, -, -, e0, e1, e2, e3, -⟩ := gate_index_facts t
  funext a; apply Fin.ext
  match a with
  | ⟨0, _⟩ => show win1_5.index t (0 : Fin 4) * 64 + 1 * c.val = c.val; omega
  | ⟨1, _⟩ => show win1_5.index t (1 : Fin 4) * 7 + 1 * h.val = t.val * 7 + h.val; omega
  | ⟨2, _⟩ => show win1_5.index t (2 : Fin 4) * 56 + 1 * w.val = w.val; omega
  | ⟨3, _⟩ => show win1_5.index t (3 : Fin 4) * 128 + 1 * n.val = n.val; omega

theorem gate_out_emb (t : Fin cfg1.N) (c : Fin 64) (h : Fin 7) (w : Fin 56) (n : Fin 128) :
    ((cfg1.win 6).blk t).view.emb (ix4 c h w n) = ix4 c (gateRow t h) w n := by
  obtain ⟨-, -, -, -, -, -, -, -, -, -, -, -, -, -, e0, e1, e2, e3⟩ := gate_index_facts t
  funext a; apply Fin.ext
  match a with
  | ⟨0, _⟩ => show win1_6.index t (0 : Fin 4) * 64 + 1 * c.val = c.val; omega
  | ⟨1, _⟩ => show win1_6.index t (1 : Fin 4) * 7 + 1 * h.val = t.val * 7 + h.val; omega
  | ⟨2, _⟩ => show win1_6.index t (2 : Fin 4) * 56 + 1 * w.val = w.val; omega
  | ⟨3, _⟩ => show win1_6.index t (3 : Fin 4) * 128 + 1 * n.val = n.val; omega

section
variable (V : (c : Dev nD) → (b : Ref sig .tc) → Buf (Elt Ideal) ((c : Thread nD τ).loc b))

theorem gate_p_apply (c : Dev nD) (t : Fin cfg1.N) (k : Fin 64) (n : Fin 128) :
    iblk1 V c 0 t (ix2 k n) = V c main_v4 (ix2 k n) := by
  show V c main_v4 (((cfg1.win 0).blk t).view.emb (ix2 k n)) = _
  rw [gate_p_emb]
theorem gate_w1_apply (c : Dev nD) (t : Fin cfg1.N) (r : Fin 4) (k : Fin 64) :
    iblk1 V c 1 t (ix2 r k) = V c main_arg1 (ix2 r k) := by
  show V c main_arg1 (((cfg1.win 1).blk t).view.emb (ix2 r k)) = _
  rw [gate_w1_emb]
theorem gate_b1_apply (c : Dev nD) (t : Fin cfg1.N) (u : Fin 1) (r : Fin 4) :
    iblk1 V c 2 t (ix2 u r) = V c main_v1 (ix2 u r) := by
  show V c main_v1 (((cfg1.win 2).blk t).view.emb (ix2 u r)) = _
  rw [gate_b1_emb]
theorem gate_w2_apply (c : Dev nD) (t : Fin cfg1.N) (r : Fin 4) (k : Fin 64) :
    iblk1 V c 3 t (ix2 r k) = V c main_v2 (ix2 r k) := by
  show V c main_v2 (((cfg1.win 3).blk t).view.emb (ix2 r k)) = _
  rw [gate_w2_emb]
theorem gate_b2_apply (c : Dev nD) (t : Fin cfg1.N) (u : Fin 1) (k : Fin 64) :
    iblk1 V c 4 t (ix2 u k) = V c main_v3 (ix2 u k) := by
  show V c main_v3 (((cfg1.win 4).blk t).view.emb (ix2 u k)) = _
  rw [gate_b2_emb]
theorem gate_x_apply (c : Dev nD) (t : Fin cfg1.N) (ch : Fin 64) (h : Fin 7) (w : Fin 56) (n : Fin 128) :
    iblk1 V c 5 t (ix4 ch h w n) = V c main_v0 (ix4 ch (gateRow t h) w n) := by
  show V c main_v0 (((cfg1.win 5).blk t).view.emb (ix4 ch h w n)) = _
  rw [gate_x_emb]

/-- WHAT POINT t WRITES BACK is block t of the rescaled array of what the call finds. -/
theorem gate_flushed (c : Dev nD) (t : Fin cfg1.N) :
    (dat1 V c).flushed 6 t = ((cfg1.win 6).blk t).view.read (Elt Ideal)
      (rescaledArr (V c main_v4) (V c main_arg1) (V c main_v1) (V c main_v2) (V c main_v3) (V c main_v0)) := by
  show (cfg1.win 6).cut (grid1.coords t) ((dat1 V c).after 6 t) = _
  rw [after1_6]
  unfold out1_6
  rw [View.canon_unit_zero zeros4']
  simp only [View.ld_unit_zero (S := S64x128) zeros2', View.ld_unit_zero (S := S4x64) zeros2', View.ld_unit_zero (S := S1x4) zeros2',
    View.ld_unit_zero (S := S1x64) zeros2', View.ld_unit_zero (S := S64x7x56x128) zeros4']
  funext j
  obtain ⟨ch, h, w, n, rfl⟩ : ∃ (ch : Fin 64) (h : Fin 7) (w : Fin 56) (n : Fin 128), j = ix4 ch h w n := ⟨j 0, j 1, j 2, j 3, eq_ix4 j⟩
  show k1_pay1 (F := Ideal) (iblk1 V c 0 t) (iblk1 V c 1 t) (iblk1 V c 2 t) (iblk1 V c 3 t) (iblk1 V c 4 t) (iblk1 V c 5 t) (ix4 ch h w n)
    = rescaledArr (V c main_v4) (V c main_arg1) (V c main_v1) (V c main_v2) (V c main_v3) (V c main_v0) (((cfg1.win 6).blk t).view.emb (ix4 ch h w n))
  rw [gate_out_emb, rescaledArr_ix4]
  refine (rescale_payload_apply (iblk1 V c 0 t) (iblk1 V c 1 t) (iblk1 V c 2 t) (iblk1 V c 3 t) (iblk1 V c 4 t) (iblk1 V c 5 t) ch h w n).trans ?_
  unfold gatedAt
  simp only [gate_p_apply V c t, gate_w1_apply V c t, gate_b1_apply V c t, gate_w2_apply V c t, gate_b2_apply V c t, gate_x_apply V c t]

/-- An index of the result is in point t's block iff each coordinate is in the block's range on its axis. -/
theorem gate_mem_blk (t : Fin cfg1.N) (i : S64x56x56x128.Idx) :
    i ∈ ((cfg1.win 6).blk t).view.set ↔ ∀ a : Fin 4, win1_6.index t a * S64x7x56x128.size a ≤ (i a).val ∧ (i a).val < win1_6.index t a * S64x7x56x128.size a + S64x7x56x128.size a := by
  show i ∈ ((View.whole main_v5).slice (win1_6.rect t)).set ↔ _
  rw [View.set_slice_whole, Rect.mem_set_unit]
  exact Iff.rfl

/-- Every index of the result is in some point's block: row h in block h / 7. -/
theorem gate_cover (i : S64x56x56x128.Idx) :
    ∃ t : Fin cfg1.N, (cfg1.win 6).flush t = true ∧ i ∈ ((cfg1.win 6).blk t).view.set := by
  have hi0 : (i 0).val < 64 := (i 0).isLt
  have hi1 : (i 1).val < 56 := (i 1).isLt
  have hi2 : (i 2).val < 56 := (i 2).isLt
  have hi3 : (i 3).val < 128 := (i 3).isLt
  have hN : cfg1.N = 8 := N_1
  let t : Fin cfg1.N := ⟨(i 1).val / 7, by rw [hN]; omega⟩
  have ht : t.val = (i 1).val / 7 := rfl
  obtain ⟨-, -, -, -, -, -, -, -, -, -, -, -, -, -, e0, e1, e2, e3⟩ := gate_index_facts t
  refine ⟨t, flush1_6 t, ?_⟩
  rw [gate_mem_blk]
  intro a
  match a with
  | ⟨0, _⟩ => show win1_6.index t (0 : Fin 4) * 64 ≤ (i 0).val ∧ (i 0).val < win1_6.index t (0 : Fin 4) * 64 + 64; omega
  | ⟨1, _⟩ => show win1_6.index t (1 : Fin 4) * 7 ≤ (i 1).val ∧ (i 1).val < win1_6.index t (1 : Fin 4) * 7 + 7; omega
  | ⟨2, _⟩ => show win1_6.index t (2 : Fin 4) * 56 ≤ (i 2).val ∧ (i 2).val < win1_6.index t (2 : Fin 4) * 56 + 56; omega
  | ⟨3, _⟩ => show win1_6.index t (3 : Fin 4) * 128 ≤ (i 3).val ∧ (i 3).val < win1_6.index t (3 : Fin 4) * 128 + 128; omega

/-- THE RESULT ARRAY of the rescaling call: the rescaled array of the arrays it finds. -/
theorem gate_final (c : Dev nD) : (dat1 V c).arrAt 6 cfg1.N
    = rescaledArr (V c main_v4) (V c main_arg1) (V c main_v1) (V c main_v2) (V c main_v3) (V c main_v0) :=
  (dat1 V c).arrAt_eq_of_cover 6 _ (fun t _ => gate_flushed V c t) gate_cover

end

end Cert.KernelIdeal.KValue

end
-- ==== Proof.KBridge.lean ====
/-
  The kernel's result as one function of the five argument arrays.

  The host program transposes x [128, 64, 56, 56] to [64, 56, 56, 128], sets the two bias vectors up as rows,
  transposes the second weight matrix, runs the pooling call and the rescaling call, and transposes the rescaled
  array back.  Read index by index: the transposed-back result at (n, c, h, w) is the rescaled array at (c, h, w, n),
  which is x (n, c, h, w) times the gate of (c, n); the pooled entry (k, n) is the double sum of x (n, k, ·, ·) times
  the literal reciprocal; the transposed weight at (r, c) is w2 (c, r); the bias rows at (0, r), (0, c) are b1 (r), b2 (c).
-/
import proofs.«176814_g2000409630349674_pallasbulk_1070_15_alg».proof.Proof.KPoolArr
import proofs.«176814_g2000409630349674_pallasbulk_1070_15_alg».proof.Proof.KGateArr
import Idealize.ShloMosaic.Lib.ValueLayout

noncomputable section

open scoped BigOperators

namespace Cert.KernelIdeal.KValue

open Idealize.ShloMosaic Idealize.ShloMosaic.ValueIdx
open Cert.KernelIdeal

/-- x transposed to [64, 56, 56, 128] reads, at (c, h, w, n), x (n, c, h, w). -/
theorem xT_apply (x : S128x64x56x56.Idx → EReal) (h1 : S128x64x56x56.Transposes [1, 2, 3, 0] S64x56x56x128)
    (c : Fin 64) (h w : Fin 56) (n : Fin 128) :
    transpose S64x56x56x128 [1, 2, 3, 0] x h1 (ix4 c h w n) = x (ix4 n c h w) :=
  transpose_apply _ x h1 _ _ fun b => match b with | ⟨0, _⟩ => rfl | ⟨1, _⟩ => rfl | ⟨2, _⟩ => rfl | ⟨3, _⟩ => rfl

/-- An [64, 56, 56, 128] array transposed back to [128, 64, 56, 56] reads, at (n, c, h, w), its entry (c, h, w, n). -/
theorem backT_apply (y : S64x56x56x128.Idx → EReal) (h5 : S64x56x56x128.Transposes [3, 0, 1, 2] S128x64x56x56)
    (n : Fin 128) (c : Fin 64) (h w : Fin 56) :
    transpose S128x64x56x56 [3, 0, 1, 2] y h5 (ix4 n c h w) = y (ix4 c h w n) :=
  transpose_apply _ y h5 _ _ fun b => match b with | ⟨0, _⟩ => rfl | ⟨1, _⟩ => rfl | ⟨2, _⟩ => rfl | ⟨3, _⟩ => rfl

/-- THE RESULT: the host operations around the two calls, composed, are the specification's function with the pooled
    value written as the double sum over rows and columns. -/
theorem result_eq (x : S128x64x56x56.Idx → EReal) (w1 : S4x64.Idx → EReal) (b1 : S4.Idx → EReal) (w2 : S64x4.Idx → EReal)
    (b2 : S64.Idx → EReal)
    (h1 : S128x64x56x56.Transposes [1, 2, 3, 0] S64x56x56x128) (h2 : S4.ShapeCasts S1x4)
    (h3 : S64x4.Transposes [1, 0] S4x64) (h4 : S64.ShapeCasts S1x64)
    (h5 : S64x56x56x128.Transposes [3, 0, 1, 2] S128x64x56x56) :
    transpose S128x64x56x56 [3, 0, 1, 2]
      (rescaledArr (pooledArr (transpose S64x56x56x128 [1, 2, 3, 0] x h1)) w1 (shapeCast S1x4 b1 h2)
        (transpose S4x64 [1, 0] w2 h3) (shapeCast S1x64 b2 h4) (transpose S64x56x56x128 [1, 2, 3, 0] x h1)) h5
      = Cert.SE.out (Cert.SE.poolHW x) x w1 b1 w2 b2 := by
  funext i
  obtain ⟨n, c, h, w, rfl⟩ : ∃ (n : Fin 128) (c : Fin 64) (h w : Fin 56), i = ix4 n c h w := ⟨i 0, i 1, i 2, i 3, eq_ix4 i⟩
  rw [backT_apply, rescaledArr_ix4, xT_apply, Cert.SE.out_ix4]
  refine congrArg (x (ix4 n c h w) * ·) ?_
  unfold gatedAt Cert.SE.gate Cert.SE.hidden
  refine congrArg Ideal.logistic ?_
  refine congrArg₂ (· + ·) ?_ (shapeCast_a_1a_apply b2 h4 (0 : Fin 1) c)
  refine Finset.sum_congr rfl fun r _ => ?_
  refine congrArg₂ (· * ·) (transpose_ix2_apply w2 h3 r c) ?_
  refine congrArg (max · Cert.SE.zeroW) ?_
  refine congrArg₂ (· + ·) ?_ (shapeCast_a_1a_apply b1 h2 (0 : Fin 1) r)
  refine Finset.sum_congr rfl fun k _ => ?_
  refine congrArg (w1 (ix2 r k) * ·) ?_
  rw [pooledArr_ix2]
  unfold pooledAt Cert.SE.poolHW
  refine congrArg (· * Cert.SE.invHW) ?_
  refine Finset.sum_congr rfl fun h' _ => Finset.sum_congr rfl fun w' _ => ?_
  exact xT_apply x h1 k h' w' n

end Cert.KernelIdeal.KValue

end
-- ==== Proof.KRun.lean ====
/-
  The kernel's run with its result named, and the result as the specification's function.

  The contents at the four segment boundaries are folded from the launch memory: the host operations before the calls
  (two transposes, two casts of the bias vectors to rows), the pooling call's result array, the rescaling call's
  result array, the transpose back.  Each boundary's contents at the buffers the next segment reads are read off in
  turn — an array a call only reads keeps its contents, a buffer no window stages keeps its contents, a call's result
  array is the blocks-to-array function of what the call found — and the composition is the specification's function
  of the launch contents of the five arguments.
-/
import proofs.«176814_g2000409630349674_pallasbulk_1070_15_alg».proof.Proof.KLaunch
import proofs.«176814_g2000409630349674_pallasbulk_1070_15_alg».proof.Proof.KBridge
import Idealize.ShloMosaic.Lib.StableHlo.Run

set_option maxRecDepth 16384

noncomputable section

open scoped BigOperators

namespace Cert.KernelIdeal.KValue

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## What the pooling call finds -/

theorem entry_xT (c : Dev nD) : (V1 m ρ c main_v0 : S64x56x56x128.Idx → EReal)
    = transpose S64x56x56x128 [1, 2, 3, 0] (m ((c : Thread nD τ).loc main_arg0)) Facts₀.transposes_S128x64x56x56_S64x56x56x128_1_2_3_0 := by
  show StableHlo.after hostOps0 (W0 m ρ c) (Proc.devRef .tc main_v0) = _
  after_results
  try rfl

theorem entry_b1 (c : Dev nD) : (V1 m ρ c main_v1 : S1x4.Idx → EReal)
    = shapeCast S1x4 (m ((c : Thread nD τ).loc main_arg2)) Facts₀.shapeCasts_S4_S1x4 := by
  show StableHlo.after hostOps0 (W0 m ρ c) (Proc.devRef .tc main_v1) = _
  after_results
  try rfl

theorem entry_w2T (c : Dev nD) : (V1 m ρ c main_v2 : S4x64.Idx → EReal)
    = transpose S4x64 [1, 0] (m ((c : Thread nD τ).loc main_arg3)) Facts₀.transposes_S64x4_S4x64_1_0 := by
  show StableHlo.after hostOps0 (W0 m ρ c) (Proc.devRef .tc main_v2) = _
  after_results
  try rfl

theorem entry_b2 (c : Dev nD) : (V1 m ρ c main_v3 : S1x64.Idx → EReal)
    = shapeCast S1x64 (m ((c : Thread nD τ).loc main_arg4)) Facts₀.shapeCasts_S64_S1x64 := by
  show StableHlo.after hostOps0 (W0 m ρ c) (Proc.devRef .tc main_v3) = _
  after_results
  try rfl

theorem entry_w1 (c : Dev nD) : (V1 m ρ c main_arg1 : S4x64.Idx → EReal) = m ((c : Thread nD τ).loc main_arg1) := by
  show StableHlo.after hostOps0 (W0 m ρ c) (Proc.devRef .tc main_arg1) = _
  after_results
  try rfl

/-! ## What the rescaling call finds -/

/-- The pooled array: the pooling call's result. -/
theorem mid_pooled (c : Dev nD) : (V2 m ρ c main_v4 : S64x128.Idx → EReal) = pooledArr (V1 m ρ c main_v0) :=
  (W2_arr m ρ c 1).trans (pool_final (V1 m ρ) c)

/-- The transposed x: the pooling call only read it. -/
theorem mid_xT (c : Dev nD) : (V2 m ρ c main_v0 : S64x56x56x128.Idx → EReal) = V1 m ρ c main_v0 :=
  (W2_arr m ρ c 0).trans (((dat0 (V1 m ρ) c).arrAt_in 0 rfl _).trans (A_eq0 (V1 m ρ) c 0))

theorem mid_w1 (c : Dev nD) : (V2 m ρ c main_arg1 : S4x64.Idx → EReal) = V1 m ρ c main_arg1 :=
  W2_of_ne m ρ c main_arg1 (by decide)
theorem mid_b1 (c : Dev nD) : (V2 m ρ c main_v1 : S1x4.Idx → EReal) = V1 m ρ c main_v1 :=
  W2_of_ne m ρ c main_v1 (by decide)
theorem mid_w2T (c : Dev nD) : (V2 m ρ c main_v2 : S4x64.Idx → EReal) = V1 m ρ c main_v2 :=
  W2_of_ne m ρ c main_v2 (by decide)
theorem mid_b2 (c : Dev nD) : (V2 m ρ c main_v3 : S1x64.Idx → EReal) = V1 m ρ c main_v3 :=
  W2_of_ne m ρ c main_v3 (by decide)

/-! ## The result -/

/-- The rescaled array: the rescaling call's result. -/
theorem late_rescaled (c : Dev nD) : (W3 m ρ c (Proc.devRef .tc main_v5) : S64x56x56x128.Idx → EReal)
    = rescaledArr (V2 m ρ c main_v4) (V2 m ρ c main_arg1) (V2 m ρ c main_v1) (V2 m ρ c main_v2) (V2 m ρ c main_v3) (V2 m ρ c main_v0) :=
  (W3_arr m ρ c 6).trans (gate_final (V2 m ρ) c)

/-- The result buffer after the last host operation: the rescaled array transposed back. -/
theorem last_result (c : Dev nD) : (W4 m ρ c (Proc.devRef .tc main_v6) : S128x64x56x56.Idx → EReal)
    = transpose S128x64x56x56 [3, 0, 1, 2] (W3 m ρ c (Proc.devRef .tc main_v5)) Facts₀.transposes_S64x56x56x128_S128x64x56x56_3_0_1_2 := by
  show StableHlo.after hostOps2 (W3 m ρ c) (Proc.devRef .tc main_v6) = _
  after_results

/-- THE RESULT BUFFER, as the specification's function of the launch contents of the five arguments. -/
theorem result_contents (c : Dev nD) : (W4 m ρ c (Proc.devRef .tc main_v6) : S128x64x56x56.Idx → EReal)
    = Cert.SE.out (Cert.SE.poolHW (m ((c : Thread nD τ).loc main_arg0))) (m ((c : Thread nD τ).loc main_arg0))
        (m ((c : Thread nD τ).loc main_arg1)) (m ((c : Thread nD τ).loc main_arg2)) (m ((c : Thread nD τ).loc main_arg3))
        (m ((c : Thread nD τ).loc main_arg4)) := by
  rw [last_result, late_rescaled, mid_pooled, mid_xT, mid_w1, mid_b1, mid_w2T, mid_b2, entry_xT, entry_b1, entry_w2T, entry_b2, entry_w1]
  exact result_eq _ _ _ _ _ _ _ _ _ _

/-- THE KERNEL'S RUN: every weakly fair execution terminates with the result array at the specification's function of the
    arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v6)
        = Cert.SE.out (Cert.SE.poolHW (m ((c.tc : Thread nD τ).loc main_arg0))) (m ((c.tc : Thread nD τ).loc main_arg0))
            (m ((c.tc : Thread nD τ).loc main_arg1)) (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun r h c => ⟨((h c).1).trans (result_contents m ρ c), (h c).2⟩)
    (Cert.KernelIdeal.GenP.run_result (F := Ideal) m ρ)

end Cert.KernelIdeal.KValue

end
-- ==== Proof.RefHost.lean ====
/-
  What the region finds in the arrays that the host lines before it wrote, read at an index.

  The flattened input [128, 64, 3136] at (n, k, j) is the argument x at (n, k, j / 56, j % 56): the reshape keeps the
  row-major position, and 3136 = 56 · 56.  The transposed first weight [64, 4] at (k, r) is w1 at (r, k).  The first
  bias as a row [1, 4] at (·, r) is b1 at r, and the second bias as a column [64, 1] at (k, ·) is b2 at k.
-/
import proofs.«176814_g2000409630349674_pallasbulk_1070_15_alg».proof.Proof.Gen.ReferenceIdeal.Frame
import proofs.«176814_g2000409630349674_pallasbulk_1070_15_alg».proof.Proof.LibColumn
import Idealize.ShloMosaic.Lib.StableHlo.Run
import Idealize.ShloMosaic.Lib.Pipeline.Value
import Idealize.ShloMosaic.Lib.ValueIdx
import Idealize.ShloMosaic.Lib.ValueLayout

noncomputable section

namespace Cert.ReferenceIdeal.RefValue

open Cert.ReferenceIdeal Idealize.ShloMosaic Idealize.ShloMosaic.TcCoe Idealize.ShloMosaic.ValueIdx Idealize.SL.Sem

variable (m : (ℓ : Loc nD τ sig) → Buf (Elt Ideal) ℓ)

/-- The flattened input is the cast of the argument x. -/
theorem V_v0_eq (c : Dev nD) : (Gen.V m c main_v0 : S128x64x3136.Idx → EReal)
    = shapeCast S128x64x3136 (m ((c : Thread nD τ).loc main_arg0) : S128x64x56x56.Idx → EReal) Gen.shapeCasts_S128x64x56x56_S128x64x3136 := by
  show StableHlo.after Gen.hostOps0 (fun b => m (c, b)) (Proc.devRef .tc main_v0) = _
  after_results
  rfl

/-- The transposed first weight is the transpose of the argument w1. -/
theorem V_v1_eq (c : Dev nD) : (Gen.V m c main_v1 : S64x4.Idx → EReal)
    = transpose S64x4 [1, 0] (m ((c : Thread nD τ).loc main_arg1) : S4x64.Idx → EReal) Gen.transposes_S4x64_S64x4_1_0 := by
  show StableHlo.after Gen.hostOps0 (fun b => m (c, b)) (Proc.devRef .tc main_v1) = _
  after_results

/-- The first bias as a row is the cast of the argument b1. -/
theorem V_v2_eq (c : Dev nD) : (Gen.V m c main_v2 : S1x4.Idx → EReal)
    = shapeCast S1x4 (m ((c : Thread nD τ).loc main_arg2) : S4.Idx → EReal) Gen.shapeCasts_S4_S1x4 := by
  show StableHlo.after Gen.hostOps0 (fun b => m (c, b)) (Proc.devRef .tc main_v2) = _
  after_results
  rfl

/-- The second bias as a column is the cast of the argument b2. -/
theorem V_v3_eq (c : Dev nD) : (Gen.V m c main_v3 : S64x1.Idx → EReal)
    = shapeCast S64x1 (m ((c : Thread nD τ).loc main_arg4) : S64.Idx → EReal) Gen.shapeCasts_S64_S64x1 := by
  show StableHlo.after Gen.hostOps0 (fun b => m (c, b)) (Proc.devRef .tc main_v3) = _
  after_results
  rfl

/-- The flattened [128, 64, 3136] cast of a [128, 64, 56, 56] array reads, at (n, k, j), the entry (n, k, j / 56, j % 56). -/
theorem flat_apply {α : Type} (x : (⟨4, ![128, 64, 56, 56]⟩ : Shape).Idx → α)
    (h : (⟨4, ![128, 64, 56, 56]⟩ : Shape).ShapeCasts ⟨3, ![128, 64, 3136]⟩) (n : Fin 128) (k : Fin 64) (j : Fin 3136) :
    shapeCast ⟨3, ![128, 64, 3136]⟩ x h (ix3 n k j)
      = x (ix4 n k (⟨j.val / 56, by have := j.isLt; omega⟩ : Fin 56) (⟨j.val % 56, Nat.mod_lt _ (by decide)⟩ : Fin 56)) :=
  shapeCast_apply x h _ _ (by
    rw [Shape.rowMajor_val_four, Shape.rowMajor_val_three]
    show ((n.val * 64 + k.val) * 56 + j.val / 56) * 56 + j.val % 56 = (n.val * 64 + k.val) * 3136 + j.val
    have := j.isLt; omega)

/-- The [128, 64, 56, 56] cast of a [128, 64, 3136] array reads, at (n, k, h, w), the entry (n, k, 56 h + w). -/
theorem unflat_apply {α : Type} (y : (⟨3, ![128, 64, 3136]⟩ : Shape).Idx → α)
    (h : (⟨3, ![128, 64, 3136]⟩ : Shape).ShapeCasts ⟨4, ![128, 64, 56, 56]⟩) (n : Fin 128) (k : Fin 64) (p q : Fin 56) :
    shapeCast ⟨4, ![128, 64, 56, 56]⟩ y h (ix4 n k p q)
      = y (ix3 n k (⟨p.val * 56 + q.val, by have := p.isLt; have := q.isLt; omega⟩ : Fin 3136)) :=
  shapeCast_apply y h _ _ (by
    rw [Shape.rowMajor_val_four, Shape.rowMajor_val_three]
    show (n.val * 64 + k.val) * 3136 + (p.val * 56 + q.val) = ((n.val * 64 + k.val) * 56 + p.val) * 56 + q.val
    omega)

/-- The flattened input at (n, k, j) is x at (n, k, j / 56, j % 56). -/
theorem V_v0_apply (c : Dev nD) (n : Fin 128) (k : Fin 64) (j : Fin 3136) :
    (Gen.V m c main_v0 : S128x64x3136.Idx → EReal) (ix3 n k j)
      = (m ((c : Thread nD τ).loc main_arg0) : S128x64x56x56.Idx → EReal)
          (ix4 n k (⟨j.val / 56, by have := j.isLt; omega⟩ : Fin 56) (⟨j.val % 56, Nat.mod_lt _ (by decide)⟩ : Fin 56)) := by
  rw [V_v0_eq]
  exact flat_apply _ _ n k j

/-- The transposed first weight at (k, r) is w1 at (r, k). -/
theorem V_v1_apply (c : Dev nD) (k : Fin 64) (r : Fin 4) :
    (Gen.V m c main_v1 : S64x4.Idx → EReal) (ix2 k r) = (m ((c : Thread nD τ).loc main_arg1) : S4x64.Idx → EReal) (ix2 r k) := by
  rw [V_v1_eq]
  exact transpose_ix2_apply _ _ k r

/-- The first bias as a row at (u, r) is b1 at r. -/
theorem V_v2_apply (c : Dev nD) (u : Fin 1) (r : Fin 4) :
    (Gen.V m c main_v2 : S1x4.Idx → EReal) (ix2 u r) = (m ((c : Thread nD τ).loc main_arg2) : S4.Idx → EReal) (ix1 r) := by
  rw [V_v2_eq]
  exact shapeCast_a_1a_apply _ _ u r

/-- The second bias as a column at (k, u) is b2 at k. -/
theorem V_v3_apply (c : Dev nD) (k : Fin 64) (u : Fin 1) :
    (Gen.V m c main_v3 : S64x1.Idx → EReal) (ix2 k u) = (m ((c : Thread nD τ).loc main_arg4) : S64.Idx → EReal) (ix1 k) := by
  rw [V_v3_eq]
  exact Cert.LibColumn.shapeCast_a_a1_apply _ _ k u

end Cert.ReferenceIdeal.RefValue

end
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«176814_g2000409630349674_pallasbulk_1070_15_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.LibUnitAxes.lean ====
/-
  The layout steps between a sum over the last axis of a [a, b, c] block and a gate spread back over it, read at an
  index, for any extents.  Names no program.

  The sum over the last axis at (p, q) is the plain sum of the entries (p, q, ·).  An [a, b] array cast to [a, b, 1]
  reads (p, q) at (p, q, ·); a [1, a, 1] array cast to a column [a, 1] reads (0, p, 0) at (p, ·); a column [a, 1] cast
  to [1, a, 1] reads (p, 0) at (·, p, ·); and a [1, a, 1] array stretched along its last axis to [1, a, b] reads
  (0, p, 0) at (·, p, q).  Each cast keeps the row-major position, which with unit axes is the one free coordinate.
-/
import proofs.«176814_g2000409630349674_pallasbulk_1070_15_alg».proof.Proof.LibRowReduce
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibUnitAxes

open Idealize.ShloMosaic Idealize.ShloMosaic.ValueIdx

variable {a b c : ℕ}

/-- Result index (p, q) of a reduction along the last of three axes, with the dropped coordinate k put back, is (p, q, k). -/
theorem lift_last3 (h : (⟨3, ![a, b, c]⟩ : Shape).Reduces [(2 : Fin 3)] ⟨2, ![a, b]⟩) (p : Fin a) (q : Fin b) (k : Fin c) :
    h.lift (ix2 p q) k = ix3 p q k := by
  funext d
  apply Fin.ext
  match d with
  | ⟨0, _⟩ => rfl
  | ⟨1, _⟩ => rfl
  | ⟨2, _⟩ => rfl

/-- The sum over the last axis at (p, q): the plain sum of the entries (p, q, ·). -/
theorem lastSum3_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (p : Fin a) (q : Fin b) :
    multiReduction .add [(2 : Fin 3)] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The same for an f32 array from the zero word, the side condition on the initial word spelt as an equation between the
    two literal words. -/
theorem lastSum3_f32 (src : FVec Ideal ⟨3, ![a, b, c]⟩ .f32)
    (h : (⟨3, ![a, b, c]⟩ : Shape).Reduces [(2 : Fin 3)] ⟨2, ![a, b]⟩) (hφ : FKind.Formats .f32)
    (hacc : (0x00000000#32 : BitVec 32) = 0x00000000#32) (p : Fin a) (q : Fin b) :
    multiReduction .add [(2 : Fin 3)] ⟨2, ![a, b]⟩ src 0x00000000#32 h hφ hacc (ix2 p q) = ∑ k : Fin c, src (ix3 p q k) :=
  lastSum3_apply src 0x00000000#32 h hφ hacc p q

/-- The sum along row p of an f32 array from the zero word: the plain sum of the row's entries. -/
theorem rowSum_f32 (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = 0x00000000#32) (p : Fin a) :
    multiReduction .add [(1 : Fin 2)] ⟨1, ![a]⟩ src 0x00000000#32 h hφ hacc (ix1 p) = ∑ k : Fin b, src (ix2 p k) :=
  Cert.LibRowReduce.rowSum_apply src 0x00000000#32 h hφ hacc p

variable {α : Type}

/-- An [a, b] array cast to [a, b, 1] reads, at (p, q, u), its entry (p, q). -/
theorem shapeCast_ab_ab1_apply (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) :=
  shapeCast_apply v h _ _ (by
    have hu : u.val = 0 := by omega
    rw [Shape.rowMajor_val_three, Shape.rowMajor_val_two]
    show p.val * b + q.val = (p.val * b + q.val) * 1 + u.val
    rw [hu]; omega)

/-- A [1, a, 1] array cast to a column [a, 1] reads, at (p, u), its entry (0, p, 0). -/
theorem shapeCast_1a1_a1_apply (v : (⟨3, ![1, a, 1]⟩ : Shape).Idx → α)
    (h : (⟨3, ![1, a, 1]⟩ : Shape).ShapeCasts ⟨2, ![a, 1]⟩) (p : Fin a) (u : Fin 1) :
    shapeCast ⟨2, ![a, 1]⟩ v h (ix2 p u) = v (ix3 (0 : Fin 1) p (0 : Fin 1)) :=
  shapeCast_apply v h _ _ (by
    have hu : u.val = 0 := by omega
    rw [Shape.rowMajor_val_three, Shape.rowMajor_val_two]
    show (0 * a + p.val) * 1 + 0 = p.val * 1 + u.val
    rw [hu]; omega)

/-- A column [a, 1] cast to [1, a, 1] reads, at (u, p, u'), its entry (p, 0). -/
theorem shapeCast_a1_1a1_apply (v : (⟨2, ![a, 1]⟩ : Shape).Idx → α)
    (h : (⟨2, ![a, 1]⟩ : Shape).ShapeCasts ⟨3, ![1, a, 1]⟩) (u : Fin 1) (p : Fin a) (u' : Fin 1) :
    shapeCast ⟨3, ![1, a, 1]⟩ v h (ix3 u p u') = v (ix2 p (0 : Fin 1)) :=
  shapeCast_apply v h _ _ (by
    have hu : u.val = 0 := by omega
    have hu' : u'.val = 0 := by omega
    rw [Shape.rowMajor_val_three, Shape.rowMajor_val_two]
    show p.val * 1 + 0 = (u.val * a + p.val) * 1 + u'.val
    rw [hu, hu']; omega)

/-- A [1, a, 1] array stretched along its last axis to [1, a, b] reads, at (u, p, q), its entry (0, p, 0). -/
theorem broadcastTo_1a1_1ab_apply (v : (⟨3, ![1, a, 1]⟩ : Shape).Idx → α)
    (h : (⟨3, ![1, a, 1]⟩ : Shape).Broadcasts ⟨3, ![1, a, b]⟩) (u : Fin 1) (p : Fin a) (q : Fin b) :
    broadcastTo ⟨3, ![1, a, b]⟩ v h (ix3 u p q) = v (ix3 (0 : Fin 1) p (0 : Fin 1)) := by
  refine broadcastTo_apply v h (ix3 u p q) (ix3 (0 : Fin 1) p (0 : Fin 1)) fun ax => ?_
  match ax with
  | ⟨0, _⟩ => rfl
  | ⟨1, _⟩ =>
    show p.val = if a = 1 then 0 else p.val
    split
    · have := p.isLt; omega
    · rfl
  | ⟨2, _⟩ => rfl

end Cert.LibUnitAxes

end
-- ==== Proof.LibColReduce.lean ====
/-
  Reductions of a two-axis array along its FIRST axis, read at an index over the extended reals: the sum down column q is
  the plain sum over the rows of the entries of that column, the minimum down column q is min folded over the rows from
  the initial word. The companions, for the first axis, of the row reductions along the second. For any extents and
  element type. Names no program.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibColReduce

open Idealize.ShloMosaic Idealize.ShloMosaic.ValueIdx

variable {a b : ℕ}

/-- Result index q of a reduction along the first axis, with the dropped coordinate k put back, is (k, q). -/
theorem lift_col (h : (⟨2, ![a, b]⟩ : Shape).Reduces [(0 : Fin 2)] ⟨1, ![b]⟩) (q : Fin b) (k : Fin a) :
    h.lift (ix1 q) k = ix2 k q := by
  funext c
  apply Fin.ext
  match c with
  | ⟨0, _⟩ => rfl
  | ⟨1, _⟩ => rfl

/-- The sum down column q: the plain sum over the rows. -/
theorem colSum_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_col h q k))

/-- The minimum down column q: min folded over the rows from the initial word. -/
theorem colMin_apply {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.minimumf.neutral φ hφ) (q : Fin b) :
    multiReduction .minimumf [(0 : Fin 2)] ⟨1, ![b]⟩ src acc h hφ hacc (ix1 q)
      = (Finset.univ : Finset (Fin a)).fold min (FloatOps.ofBits (F := Ideal) φ acc) (fun k => src (ix2 k q)) := by
  rw [multiReduction_minimumf_eq_fold]
  refine (h.fold_filter_drop_single _ _ src (ix1 q)).trans ?_
  exact congrArg (fun f => (Finset.univ : Finset (Fin a)).fold min (FloatOps.ofBits (F := Ideal) φ acc) f)
    (funext fun k => congrArg src (lift_col h q k))

/-- The sum down column q of an f32 array from the zero word, with the side condition on the initial word spelt as an
    equation between the two literal words (the form a printed reduction carries). -/
theorem colSum_f32 (src : FVec Ideal ⟨2, ![a, b]⟩ .f32)
    (h : (⟨2, ![a, b]⟩ : Shape).Reduces [(0 : Fin 2)] ⟨1, ![b]⟩) (hφ : FKind.Formats .f32)
    (hacc : (0x00000000#32 : BitVec 32) = 0x00000000#32) (q : Fin b) :
    multiReduction .add [(0 : Fin 2)] ⟨1, ![b]⟩ src 0x00000000#32 h hφ hacc (ix1 q) = ∑ k : Fin a, src (ix2 k q) :=
  colSum_apply src 0x00000000#32 h hφ hacc q

/-- The minimum down column q of an f32 array from the word of +∞, the side condition spelt the same way. -/
theorem colMin_f32 (src : FVec Ideal ⟨2, ![a, b]⟩ .f32)
    (h : (⟨2, ![a, b]⟩ : Shape).Reduces [(0 : Fin 2)] ⟨1, ![b]⟩) (hφ : FKind.Formats .f32)
    (hacc : (0x7F800000#32 : BitVec 32) = 0x7F800000#32) (q : Fin b) :
    multiReduction .minimumf [(0 : Fin 2)] ⟨1, ![b]⟩ src 0x7F800000#32 h hφ hacc (ix1 q)
      = (Finset.univ : Finset (Fin a)).fold min (Ideal.ofBits .f32 0x7F800000#32) (fun k => src (ix2 k q)) :=
  colMin_apply src 0x7F800000#32 h hφ hacc q

end Cert.LibColReduce

end
-- ==== Proof.RefPayload.lean ====
/-
  The body's arithmetic at one element of its block, over the extended reals.

  For channel c and flattened position j the body multiplies the block's entry (0, c, j) by the gate of channel c: the
  logistic of  ∑_r w2(c, r) · max(∑_k w1t(k, r) · pooled(k) + b1(0, r), 0) + b2(c, 0),  where pooled(k) is the sum of the
  block's entries (0, k, ·) times the literal reciprocal.  The pointwise operations read through an index by
  definition; each sum along an axis is the plain sum over that axis; each cast or stretch through unit axes reads the
  one entry with the same free coordinate.
-/
import proofs.«176814_g2000409630349674_pallasbulk_1070_15_alg».proof.Proof.Gen.ReferenceIdeal.Skeleton
import proofs.«176814_g2000409630349674_pallasbulk_1070_15_alg».proof.Proof.LibUnitAxes
import proofs.«176814_g2000409630349674_pallasbulk_1070_15_alg».proof.Proof.LibColumn
import proofs.«176814_g2000409630349674_pallasbulk_1070_15_alg».proof.Proof.LibColReduce
import proofs.«176814_g2000409630349674_pallasbulk_1070_15_alg».proof.Proof.Spec
import Idealize.ShloMosaic.Lib.Pipeline.Value
import Idealize.ShloMosaic.Lib.ValueIdx
import Idealize.ShloMosaic.Lib.ValueLayout

noncomputable section

open scoped BigOperators

namespace Cert.ReferenceIdeal.RefValue

open Cert.ReferenceIdeal Idealize.ShloMosaic Idealize.ShloMosaic.ValueIdx Cert.LibUnitAxes

/-- The vector logistic reads through an index. -/
theorem logistic_apply {s : Shape} {φ : FTy} (v : FVec Ideal s φ) (i : s.Idx) : logistic v i = Ideal.logistic (v i) := rfl

/-- The body's stored value at (0, c, j). -/
theorem pay_apply (x0 : Vec Ideal S1x64x3136 .f32) (x1 : Vec Ideal S64x4 .f32) (x2 : Vec Ideal S1x4 .f32)
    (x3 : Vec Ideal S64x4 .f32) (x4 : Vec Ideal S64x1 .f32) (c : Fin 64) (j : Fin 3136) :
    Gen.k0_pay1 (F := Ideal) x0 x1 x2 x3 x4 (ix3 (0 : Fin 1) c j)
      = x0 (ix3 (0 : Fin 1) c j) * Ideal.logistic (∑ r : Fin 4, x3 (ix2 c r)
          * max (∑ k : Fin 64, x1 (ix2 k r) * ((∑ j' : Fin 3136, x0 (ix3 (0 : Fin 1) k j')) * Cert.SE.invHW) + x2 (ix2 (0 : Fin 1) r)) Cert.SE.zeroW
          + x4 (ix2 c (0 : Fin 1))) := by
  unfold Gen.k0_pay1
  simp only [shapeCast_self, mulf_apply, addf_apply, logistic_apply, broadcastTo_1a1_1ab_apply, shapeCast_a1_1a1_apply,
    Cert.LibColumn.shapeCast_a_a1_apply]
  -- the gate's argument: the sum over the four hidden units
  refine congrArg (fun z => x0 (ix3 (0 : Fin 1) c j) * Ideal.logistic (z + x4 (ix2 c (0 : Fin 1)))) ?_
  refine (Cert.LibRowReduce.rowSum_apply _ _ _ _ _ c).trans ?_
  refine Finset.sum_congr rfl fun r _ => ?_
  simp only [mulf_apply, maximumf_apply, addf_apply, broadcast_apply, broadcastTo_1b_ab_apply, shapeCast_a_1a_apply]
  -- hidden unit r: the sum over the 64 channels
  refine congrArg (fun z => x3 (ix2 c r) * max (z + x2 (ix2 (0 : Fin 1) r)) Cert.SE.zeroW) ?_
  refine (Cert.LibColReduce.colSum_apply _ _ _ _ _ r).trans ?_
  refine Finset.sum_congr rfl fun k _ => ?_
  simp only [mulf_apply, broadcast_apply, Cert.LibColumn.broadcastTo_a1_ab_apply, shapeCast_1a1_a1_apply,
    shapeCast_ab_ab1_apply]
  -- the pooled value of channel k: the sum over the 3136 positions
  refine congrArg (fun z => x1 (ix2 k r) * (z * Cert.SE.invHW)) ?_
  exact lastSum3_apply _ _ _ _ _ (0 : Fin 1) k

end Cert.ReferenceIdeal.RefValue

end
-- ==== Proof.RefBlocks.lean ====
/-
  From the grid's blocks to the whole flattened result.

  Grid point t works on sample t: its block of the flattened input [128, 64, 3136] is the slab (t, ·, ·), and the four
  small arrays are read whole at every point.  A block's coordinate in its array is always the block index times the
  block's size plus the coordinate inside the block; here the index is (t, 0, 0) for the input and the result and zero
  for the others.  So what point t writes back is the slab t of one function of the arrays the region finds — the entry
  (n, c, j) times the gate of (n, c) — and since the 128 slabs cover the array, the array ends holding that function.
-/
import proofs.«176814_g2000409630349674_pallasbulk_1070_15_alg».proof.Proof.Gen.ReferenceIdeal.Frame
import proofs.«176814_g2000409630349674_pallasbulk_1070_15_alg».proof.Proof.RefPayload
import Idealize.ShloMosaic.Lib.Pipeline.Value

set_option maxRecDepth 16384

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The flattened result at (n, c, j) from the flattened input y, the transposed first weight, the first bias as a row,
    the second weight and the second bias as a column: the entry times the gate of (n, c). -/
def gflatAt (y : S128x64x3136.Idx → EReal) (w1t : S64x4.Idx → EReal) (b1r : S1x4.Idx → EReal) (w2 : S64x4.Idx → EReal)
    (b2c : S64x1.Idx → EReal) (n : Fin 128) (c : Fin 64) (j : Fin 3136) : EReal :=
  y (ix3 n c j) * Ideal.logistic (∑ r : Fin 4, w2 (ix2 c r)
      * max (∑ k : Fin 64, w1t (ix2 k r) * ((∑ j' : Fin 3136, y (ix3 n k j')) * Cert.SE.invHW) + b1r (ix2 (0 : Fin 1) r)) Cert.SE.zeroW
      + b2c (ix2 c (0 : Fin 1)))

/-- The flattened result as one array. -/
def gflat (y : S128x64x3136.Idx → EReal) (w1t : S64x4.Idx → EReal) (b1r : S1x4.Idx → EReal) (w2 : S64x4.Idx → EReal)
    (b2c : S64x1.Idx → EReal) : S128x64x3136.Idx → EReal :=
  fun i => gflatAt y w1t b1r w2 b2c (i 0) (i 1) (i 2)

theorem gflat_ix3 (y : S128x64x3136.Idx → EReal) (w1t : S64x4.Idx → EReal) (b1r : S1x4.Idx → EReal) (w2 : S64x4.Idx → EReal)
    (b2c : S64x1.Idx → EReal) (n : Fin 128) (c : Fin 64) (j : Fin 3136) :
    gflat y w1t b1r w2 b2c (ix3 n c j) = gflatAt y w1t b1r w2 b2c n c j := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: the input's and the result's block index at point t is (t, 0, 0), the
    four small arrays' is zero. -/
theorem idx_facts : ∀ t : Fin cfg0.N,
    win0_0.index t (0 : Fin 3) = t.val ∧ win0_0.index t (1 : Fin 3) = 0 ∧ win0_0.index t (2 : Fin 3) = 0
    ∧ win0_5.index t (0 : Fin 3) = t.val ∧ win0_5.index t (1 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Grid point t as a sample number. -/
def sampleOf (t : Fin cfg0.N) : Fin 128 := ⟨t.val, lt_of_lt_of_eq t.isLt (show cfg0.N = 128 from N_0)⟩

theorem sampleOf_val (t : Fin cfg0.N) : (sampleOf t).val = t.val := rfl

/-- The input's block at point t is the slab t of the flattened input. -/
theorem iblk0_apply (c : Dev nD) (t : Fin cfg0.N) (k : Fin 64) (j : Fin 3136) :
    (iblk m c 0 t : Vec Ideal S1x64x3136 .f32) (ix3 (0 : Fin 1) k j)
      = (V m c main_v0 : S128x64x3136.Idx → EReal) (ix3 (sampleOf t) k j) := by
  obtain ⟨e0, e1, e2, -⟩ := idx_facts t
  show (V m c main_v0 : S128x64x3136.Idx → EReal) (((cfg0.win 0).blk t).view.emb (ix3 (0 : Fin 1) k j)) = _
  refine congrArg (V m c main_v0 : S128x64x3136.Idx → EReal) (funext fun a => Fin.ext ?_)
  match a with
  | ⟨0, _⟩ => show win0_0.index t (0 : Fin 3) * 1 + 1 * 0 = t.val; omega
  | ⟨1, _⟩ => show win0_0.index t (1 : Fin 3) * 64 + 1 * k.val = k.val; omega
  | ⟨2, _⟩ => show win0_0.index t (2 : Fin 3) * 3136 + 1 * j.val = j.val; omega

/-- The transposed first weight is read whole at every point. -/
theorem iblk1_apply (c : Dev nD) (t : Fin cfg0.N) (k : Fin 64) (r : Fin 4) :
    (iblk m c 1 t : Vec Ideal S64x4 .f32) (ix2 k r) = (V m c main_v1 : S64x4.Idx → EReal) (ix2 k r) := by
  obtain ⟨-, -, -, -, -, -, e0, e1, -⟩ := idx_facts t
  show (V m c main_v1 : S64x4.Idx → EReal) (((cfg0.win 1).blk t).view.emb (ix2 k r)) = _
  refine congrArg (V m c main_v1 : S64x4.Idx → EReal) (funext fun a => Fin.ext ?_)
  match a with
  | ⟨0, _⟩ => show win0_1.index t (0 : Fin 2) * 64 + 1 * k.val = k.val; omega
  | ⟨1, _⟩ => show win0_1.index t (1 : Fin 2) * 4 + 1 * r.val = r.val; omega

/-- The first bias as a row is read whole at every point. -/
theorem iblk2_apply (c : Dev nD) (t : Fin cfg0.N) (u : Fin 1) (r : Fin 4) :
    (iblk m c 2 t : Vec Ideal S1x4 .f32) (ix2 u r) = (V m c main_v2 : S1x4.Idx → EReal) (ix2 u r) := by
  obtain ⟨-, -, -, -, -, -, -, -, e0, e1, -⟩ := idx_facts t
  show (V m c main_v2 : S1x4.Idx → EReal) (((cfg0.win 2).blk t).view.emb (ix2 u r)) = _
  refine congrArg (V m c main_v2 : S1x4.Idx → EReal) (funext fun a => Fin.ext ?_)
  match a with
  | ⟨0, _⟩ => show win0_2.index t (0 : Fin 2) * 1 + 1 * u.val = u.val; omega
  | ⟨1, _⟩ => show win0_2.index t (1 : Fin 2) * 4 + 1 * r.val = r.val; omega

/-- The second weight is read whole at every point. -/
theorem iblk3_apply (c : Dev nD) (t : Fin cfg0.N) (k : Fin 64) (r : Fin 4) :
    (iblk m c 3 t : Vec Ideal S64x4 .f32) (ix2 k r) = (V m c main_arg3 : S64x4.Idx → EReal) (ix2 k r) := by
  obtain ⟨-, -, -, -, -, -, -, -, -, -, e0, e1, -⟩ := idx_facts t
  show (V m c main_arg3 : S64x4.Idx → EReal) (((cfg0.win 3).blk t).view.emb (ix2 k r)) = _
  refine congrArg (V m c main_arg3 : S64x4.Idx → EReal) (funext fun a => Fin.ext ?_)
  match a with
  | ⟨0, _⟩ => show win0_3.index t (0 : Fin 2) * 64 + 1 * k.val = k.val; omega
  | ⟨1, _⟩ => show win0_3.index t (1 : Fin 2) * 4 + 1 * r.val = r.val; omega

/-- The second bias as a column is read whole at every point. -/
theorem iblk4_apply (c : Dev nD) (t : Fin cfg0.N) (k : Fin 64) (u : Fin 1) :
    (iblk m c 4 t : Vec Ideal S64x1 .f32) (ix2 k u) = (V m c main_v3 : S64x1.Idx → EReal) (ix2 k u) := by
  obtain ⟨-, -, -, -, -, -, -, -, -, -, -, -, e0, e1⟩ := idx_facts t
  show (V m c main_v3 : S64x1.Idx → EReal) (((cfg0.win 4).blk t).view.emb (ix2 k u)) = _
  refine congrArg (V m c main_v3 : S64x1.Idx → EReal) (funext fun a => Fin.ext ?_)
  match a with
  | ⟨0, _⟩ => show win0_4.index t (0 : Fin 2) * 64 + 1 * k.val = k.val; omega
  | ⟨1, _⟩ => show win0_4.index t (1 : Fin 2) * 1 + 1 * u.val = u.val; omega

/-- The body's stored value at (0, c, j), at point t, is the flattened result at (t, c, j). -/
theorem pay_at_point (c : Dev nD) (t : Fin cfg0.N) (k : Fin 64) (j : Fin 3136) :
    k0_pay1 (F := Ideal) (iblk m c 0 t) (iblk m c 1 t) (iblk m c 2 t) (iblk m c 3 t) (iblk m c 4 t) (ix3 (0 : Fin 1) k j)
      = gflatAt (V m c main_v0) (V m c main_v1) (V m c main_v2) (V m c main_arg3) (V m c main_v3) (sampleOf t) k j := by
  refine (pay_apply (iblk m c 0 t) (iblk m c 1 t) (iblk m c 2 t) (iblk m c 3 t) (iblk m c 4 t) k j).trans ?_
  unfold gflatAt
  simp only [iblk0_apply m c t, iblk1_apply m c t, iblk2_apply m c t, iblk3_apply m c t, iblk4_apply m c t]

/-- What point t writes back is block t of the flattened result of the arrays the region finds. -/
theorem flushed5_eq (c : Dev nD) (t : Fin cfg0.N) :
    (dats m 0 c).flushed 5 t = ((cfg0.win 5).blk t).view.read (Elt Ideal)
      (gflat (V m c main_v0) (V m c main_v1) (V m c main_v2) (V m c main_arg3) (V m c main_v3)) := by
  show (cfg0.win 5).cut (grid0.coords t) ((dats m 0 c).after 5 t) = _
  rw [after0_5]
  unfold out0_5
  rw [View.canon_unit_zero hz3]
  simp only [View.ld_unit_zero (S := S1x64x3136) hz3, View.ld_unit_zero (S := S64x4) hz2, View.ld_unit_zero (S := S1x4) hz2,
    View.ld_unit_zero (S := S64x1) hz2]
  obtain ⟨-, -, -, e0, e1, e2, -⟩ := idx_facts t
  funext y
  have h0 : (y 0).val < 1 := (y 0).isLt
  have h1 : (y 1).val < 64 := (y 1).isLt
  have h2 : (y 2).val < 3136 := (y 2).isLt
  have hL : (cfg0.win 5).xinj (grid0.coords t) y = ix3 (0 : Fin 1) (⟨(y 1).val, h1⟩ : Fin 64) (⟨(y 2).val, h2⟩ : Fin 3136) := by
    funext a; apply Fin.ext
    match a with
    | ⟨0, _⟩ => show (y 0).val = 0; omega
    | ⟨1, _⟩ => rfl
    | ⟨2, _⟩ => rfl
  have hR : ((cfg0.win 5).blk t).view.emb y = ix3 (sampleOf t) (⟨(y 1).val, h1⟩ : Fin 64) (⟨(y 2).val, h2⟩ : Fin 3136) := by
    funext a; apply Fin.ext
    match a with
    | ⟨0, _⟩ => show win0_5.index t (0 : Fin 3) * 1 + 1 * (y 0).val = t.val; omega
    | ⟨1, _⟩ => show win0_5.index t (1 : Fin 3) * 64 + 1 * (y 1).val = (y 1).val; omega
    | ⟨2, _⟩ => show win0_5.index t (2 : Fin 3) * 3136 + 1 * (y 2).val = (y 2).val; omega
  show k0_pay1 (F := Ideal) (iblk m c 0 t) (iblk m c 1 t) (iblk m c 2 t) (iblk m c 3 t) (iblk m c 4 t) ((cfg0.win 5).xinj (grid0.coords t) y)
    = gflat (V m c main_v0) (V m c main_v1) (V m c main_v2) (V m c main_arg3) (V m c main_v3) (((cfg0.win 5).blk t).view.emb y)
  rw [hL, hR, gflat_ix3]
  exact pay_at_point m c t ⟨(y 1).val, h1⟩ ⟨(y 2).val, h2⟩

/-- An index of the array is in point t's block iff each coordinate is in the block's range on its axis. -/
theorem mem_blk5 (t : Fin cfg0.N) (i : S128x64x3136.Idx) :
    i ∈ ((cfg0.win 5).blk t).view.set ↔ ∀ a : Fin 3, win0_5.index t a * S1x64x3136.size a ≤ (i a).val
      ∧ (i a).val < win0_5.index t a * S1x64x3136.size a + S1x64x3136.size a := by
  show i ∈ ((View.whole main_v4).slice (win0_5.rect t)).set ↔ _
  rw [View.set_slice_whole, Rect.mem_set_unit]
  exact Iff.rfl

/-- Every index (n, c, j) of the result is in the block of point n. -/
theorem cover5 (i : S128x64x3136.Idx) : ∃ t : Fin cfg0.N, (cfg0.win 5).flush t = true ∧ i ∈ ((cfg0.win 5).blk t).view.set := by
  have h0 : (i 0).val < 128 := (i 0).isLt
  have h1 : (i 1).val < 64 := (i 1).isLt
  have h2 : (i 2).val < 3136 := (i 2).isLt
  let t : Fin cfg0.N := ⟨(i 0).val, by rw [show cfg0.N = 128 from N_0]; exact h0⟩
  have ht : t.val = (i 0).val := rfl
  obtain ⟨-, -, -, e0, e1, e2, -⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 64 ≤ (i 1).val ∧ (i 1).val < win0_5.index t (1 : Fin 3) * 64 + 64; omega
  | ⟨2, _⟩ => show win0_5.index t (2 : Fin 3) * 3136 ≤ (i 2).val ∧ (i 2).val < win0_5.index t (2 : Fin 3) * 3136 + 3136; omega

/-- The array after the region is the flattened result of the arrays the region finds. -/
theorem final5 (c : Dev nD) : (dats m 0 c).arrAt 5 cfg0.N
    = gflat (V m c main_v0) (V m c main_v1) (V m c main_v2) (V m c main_arg3) (V m c main_v3) :=
  (dats m 0 c).arrAt_eq_of_cover 5 (gflat (V m c main_v0) (V m c main_v1) (V m c main_v2) (V m c main_arg3) (V m c main_v3))
    (fun t _ => flushed5_eq m c t) cover5

end Cert.ReferenceIdeal.RefValue

end
-- ==== Proof.RefRun.lean ====
/-
  The reference's run, read: the result array as one function of the five argument arrays.

  After the region the flattened result [128, 64, 3136] is cast back to [128, 64, 56, 56]: the entry (n, c, h, w) is
  the flattened entry (n, c, 56 h + w).  The flattened input at (n, c, j) is x at (n, c, j / 56, j % 56), so the
  flattened sum over j is the pooled sum written over the 3136 positions, and at j = 56 h + w the entry is
  x(n, c, h, w).  The transposed weight, the row bias and the column bias read back as w1, b1, b2.  Hence the result is
  x scaled by the gate of its sample and channel; the argument arrays are left as launched.
-/
import proofs.«176814_g2000409630349674_pallasbulk_1070_15_alg».proof.Proof.Gen.ReferenceIdeal.Frame
import proofs.«176814_g2000409630349674_pallasbulk_1070_15_alg».proof.Proof.RefHost
import proofs.«176814_g2000409630349674_pallasbulk_1070_15_alg».proof.Proof.RefBlocks
import proofs.«176814_g2000409630349674_pallasbulk_1070_15_alg».proof.Proof.Spec
import Idealize.ShloMosaic.Lib.StableHlo.Run
import Idealize.ShloMosaic.Lib.Pipeline.Value

set_option maxRecDepth 16384

noncomputable section

open scoped BigOperators

namespace Cert.ReferenceIdeal.RefValue

open Cert.ReferenceIdeal Cert.ReferenceIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The flattened result of the arrays the region finds, cast back to four axes, is the specification of the arguments. -/
theorem result_eq (c : Dev nD) :
    shapeCast S128x64x56x56 (gflat (V m c main_v0) (V m c main_v1) (V m c main_v2) (V m c main_arg3) (V m c main_v3))
        Gen.shapeCasts_S128x64x3136_S128x64x56x56
      = Cert.SE.out (Cert.SE.poolFlat (m ((c : Thread nD τ).loc main_arg0))) (m ((c : Thread nD τ).loc main_arg0))
          (m ((c : Thread nD τ).loc main_arg1)) (m ((c : Thread nD τ).loc main_arg2)) (m ((c : Thread nD τ).loc main_arg3))
          (m ((c : Thread nD τ).loc main_arg4)) := by
  funext i
  obtain ⟨n, k, p, q, rfl⟩ : ∃ (n : Fin 128) (k : Fin 64) (p q : Fin 56), i = ix4 n k p q := ⟨i 0, i 1, i 2, i 3, eq_ix4 i⟩
  rw [unflat_apply, gflat_ix3, Cert.SE.out_ix4]
  unfold gflatAt Cert.SE.gate Cert.SE.hidden Cert.SE.poolFlat
  simp only [V_v0_apply m c, V_v1_apply m c, V_v2_apply m c, V_v3_apply m c, Gen.V_main_arg3 m c]
  have e1 : (p.val * 56 + q.val) / 56 = p.val := by have := q.isLt; omega
  have e2 : (p.val * 56 + q.val) % 56 = q.val := by have := q.isLt; omega
  simp only [e1, e2]

/-- The result array after the host line that follows the region. -/
theorem tail_v5 (c : Dev nD) :
    (Pipeline.afterTail₀ cfgs (dats m) 0 (V0 m) [hostOps1] c main_v5 : S128x64x56x56.Idx → EReal)
      = shapeCast S128x64x56x56 (gflat (V m c main_v0) (V m c main_v1) (V m c main_v2) (V m c main_arg3) (V m c main_v3))
          Gen.shapeCasts_S128x64x3136_S128x64x56x56 := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = gflat (V m c main_v0) (V m c main_v1) (V m c main_v2) (V m c main_arg3) (V m c main_v3) :=
    (Pipeline.withArrays_arr spec0 launch0.win.arr_inj c _ _ 5).trans (final5 m c)
  rw [e]
  rfl

/-- The run, read: at the compiled mesh, from any memory with zero counters, every weakly fair execution of the
    reference terminates with the result array at the specification of the launched arguments and the five argument
    arrays as launched. -/
theorem run : θ_run (defs (F := Ideal)) (onTc (τ := τ) (main (F := Ideal))) ⟨m, fun _ => 0, ρ⟩ (fun r => ∀ c : Dev nD,
      r.2.mem ((c.tc : Thread nD τ).loc main_v5)
        = Cert.SE.out (Cert.SE.poolFlat (m ((c.tc : Thread nD τ).loc main_arg0))) (m ((c.tc : Thread nD τ).loc main_arg0))
            (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v5 (Pipeline.mem_restRefs_of main_v5 (by decide) (by decide))).trans ((tail_v5 m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.ReferenceIdeal.RefValue

end
-- ==== Proof.lean ====
/-
  The certificate: a squeeze-and-excite layer computed by two calls in a batch-minor layout against a fused call per
  sample, equal over the extended reals.

  Both programs compute, at (n, c, h, w), x (n, c, h, w) times logistic (∑_r w2 (c, r) · max (∑_k w1 (r, k) · pooled (n, k)
  + b1 (r), 0) + b2 (c)), where pooled (n, k) is the sum of x (n, k, ·, ·) over the 3136 spatial positions times the same
  literal reciprocal on both sides.  The kernel transposes x so that the samples are the last axis, sums rows then columns
  in a first call, evaluates the two small products as matrix products in a second call and transposes back; the reference
  flattens the spatial positions, sums them in one pass and evaluates the products as stretched element products summed
  along an axis.  The only law between the two is that the sum over the 3136 flattened positions is the double sum over
  rows and columns (addition of extended reals is commutative and associative; no finiteness is used).
  The three frames are the generated ones; the idealization rewrote nothing, so the preservation claim is trivial.
-/
import proofs.«176814_g2000409630349674_pallasbulk_1070_15_alg».proof.Defs
import proofs.«176814_g2000409630349674_pallasbulk_1070_15_alg».proof.Proof.Gen.Kernel
import proofs.«176814_g2000409630349674_pallasbulk_1070_15_alg».proof.Proof.Gen.Kernel.Skeleton
import proofs.«176814_g2000409630349674_pallasbulk_1070_15_alg».proof.Proof.Gen.Kernel.Launch
import proofs.«176814_g2000409630349674_pallasbulk_1070_15_alg».proof.Proof.Gen.Kernel.Points
import proofs.«176814_g2000409630349674_pallasbulk_1070_15_alg».proof.Proof.Gen.Kernel.Frame
import proofs.«176814_g2000409630349674_pallasbulk_1070_15_alg».proof.Proof.Gen.KernelIdeal
import proofs.«176814_g2000409630349674_pallasbulk_1070_15_alg».proof.Proof.Gen.KernelIdeal.Skeleton
import proofs.«176814_g2000409630349674_pallasbulk_1070_15_alg».proof.Proof.Gen.KernelIdeal.Launch
import proofs.«176814_g2000409630349674_pallasbulk_1070_15_alg».proof.Proof.Gen.KernelIdeal.Points
import proofs.«176814_g2000409630349674_pallasbulk_1070_15_alg».proof.Proof.Gen.KernelIdeal.Frame
import proofs.«176814_g2000409630349674_pallasbulk_1070_15_alg».proof.Proof.Gen.ReferenceIdeal
import proofs.«176814_g2000409630349674_pallasbulk_1070_15_alg».proof.Proof.Gen.ReferenceIdeal.Skeleton
import proofs.«176814_g2000409630349674_pallasbulk_1070_15_alg».proof.Proof.Gen.ReferenceIdeal.Launch
import proofs.«176814_g2000409630349674_pallasbulk_1070_15_alg».proof.Proof.Gen.ReferenceIdeal.Points
import proofs.«176814_g2000409630349674_pallasbulk_1070_15_alg».proof.Proof.Gen.ReferenceIdeal.Frame
import proofs.«176814_g2000409630349674_pallasbulk_1070_15_alg».proof.Proof.Gen.Pre_finite_inputs
import proofs.«176814_g2000409630349674_pallasbulk_1070_15_alg».proof.Proof.Spec
import proofs.«176814_g2000409630349674_pallasbulk_1070_15_alg».proof.Proof.KRun
import proofs.«176814_g2000409630349674_pallasbulk_1070_15_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ => Cert.ReferenceIdeal.Gen.frame m ρ

/-- From memories agreeing on the five arguments both runs end with the result array at the specification's function of
    the arguments: the kernel's with the pooled value as the double sum, the reference's with it as the flattened sum,
    which are one number. -/
theorem algebraic : Cert.algebraic_KernelIdeal_ReferenceIdeal := by
  intro m ρ m' ρ' _ hagree
  refine ⟨_, Cert.KernelIdeal.KValue.run m ρ, ?_⟩
  refine (θ_run (Cert.ReferenceIdeal.defs (F := Ideal)) _ _).mono (fun r h c => ⟨(h c).1.trans ?_, (h c).2⟩)
    (Cert.ReferenceIdeal.RefValue.run m' ρ')
  rw [(hagree c).1, (hagree c).2.1, (hagree c).2.2.1, (hagree c).2.2.2.1, (hagree c).2.2.2.2, Cert.SE.poolFlat_eq_poolHW]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
